-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1250000 32) (main_arg2 : FVec F S1250000 .f32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000 .f32 := Host.absf main_arg2
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S1x1250000 : Shape := ⟨2, ![1, 1250000]⟩
abbrev S_ : Shape := ⟨0, ![]⟩
abbrev S100000 : Shape := ⟨1, ![100000]⟩
abbrev S1250000x1 : Shape := ⟨2, ![1250000, 1]⟩
abbrev S10000x64 : Shape := ⟨2, ![10000, 64]⟩
abbrev S1250000x64 : Shape := ⟨2, ![1250000, 64]⟩
abbrev S100000x1 : Shape := ⟨2, ![100000, 1]⟩
abbrev S1x64 : Shape := ⟨2, ![1, 64]⟩
abbrev S2000x64 : Shape := ⟨2, ![2000, 64]⟩
abbrev S2000x1 : Shape := ⟨2, ![2000, 1]⟩

abbrev nBuf : Space → Nat
  | .hbm => 87
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S1x1250000, .i32⟩
  | .hbm, ⟨10, _⟩ => ⟨S1250000, .i32⟩
  | .hbm, ⟨11, _⟩ => ⟨S_, .f32⟩
  | .hbm, ⟨12, _⟩ => ⟨S100000, .f32⟩
  | .hbm, ⟨13, _⟩ => ⟨S1250000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000, .f32⟩
  | .hbm, ⟨35, _⟩ => ⟨S1250000, .f32⟩
  | .hbm, ⟨36, _⟩ => ⟨S_, .i32⟩
  | .hbm, ⟨37, _⟩ => ⟨S1250000, .i32⟩
  | .hbm, ⟨38, _⟩ => ⟨S1250000, .i1⟩
  | .hbm, ⟨39, _⟩ => ⟨S_, .i32⟩
  | .hbm, ⟨40, _⟩ => ⟨S1250000, .i32⟩
  | .hbm, ⟨41, _⟩ => ⟨S1250000, .i32⟩
  | .hbm, ⟨42, _⟩ => ⟨S1250000, .i32⟩
  | .hbm, ⟨43, _⟩ => ⟨S1250000x1, .i32⟩
  | .hbm, ⟨44, _⟩ => ⟨S1250000, .f32⟩
  | .hbm, ⟨45, _⟩ => ⟨S1250000, .f32⟩
  | .hbm, ⟨46, _⟩ => ⟨S100000, .f32⟩
  | .hbm, ⟨47, _⟩ => ⟨S100000x64, .f32⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x64, .f32⟩
  | .hbm, ⟨57, _⟩ => ⟨S1250000x1, .f32⟩
  | .hbm, ⟨58, _⟩ => ⟨S1250000x64, .f32⟩
  | .hbm, ⟨59, _⟩ => ⟨S1250000x64, .f32⟩
  | .hbm, ⟨60, _⟩ => ⟨S_, .f32⟩
  | .hbm, ⟨61, _⟩ => ⟨S100000x64, .f32⟩
  | .hbm, ⟨62, _⟩ => ⟨S1250000x1, .i32⟩
  | .hbm, ⟨63, _⟩ => ⟨S100000x64, .f32⟩
  | .hbm, ⟨64, _⟩ => ⟨S100000x1, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1250000, .i32⟩
  | .hbm, ⟨70, _⟩ => ⟨S1250000, .i1⟩
  | .hbm, ⟨71, _⟩ => ⟨S_, .i32⟩
  | .hbm, ⟨72, _⟩ => ⟨S1250000, .i32⟩
  | .hbm, ⟨73, _⟩ => ⟨S1250000, .i32⟩
  | .hbm, ⟨74, _⟩ => ⟨S1250000, .i32⟩
  | .hbm, ⟨75, _⟩ => ⟨S1250000x1, .i32⟩
  | .hbm, ⟨76, _⟩ => ⟨S1250000x64, .f32⟩
  | .hbm, ⟨77, _⟩ => ⟨S1250000x1, .f32⟩
  | .hbm, ⟨78, _⟩ => ⟨S1250000x64, .f32⟩
  | .hbm, ⟨79, _⟩ => ⟨S1250000x64, .f32⟩
  | .hbm, ⟨80, _⟩ => ⟨S_, .f32⟩
  | .hbm, ⟨81, _⟩ => ⟨S100000x64, .f32⟩
  | .hbm, ⟨82, _⟩ => ⟨S1250000x1, .i32⟩
  | .hbm, ⟨83, _⟩ => ⟨S100000x64, .f32⟩
  | .hbm, ⟨84, _⟩ => ⟨S100000x1, .f32⟩
  | .hbm, ⟨85, _⟩ => ⟨S1x64, .f32⟩
  | .hbm, ⟨86, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S1250000 : S_.BroadcastsInDim S1250000 (![] : Fin 0 → Fin S1250000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S10000x64_S10000x64 : S10000x64.ShapeCasts S10000x64
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  dot_S10000x64_S64x64_S10000x64_1_1_0_0_n_n_wf : DotDims.WF S10000x64 S64x64 S10000x64 [1] [1] [0] [0] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def dot_S10000x64_S64x64_S10000x64_1_1_0_0_n_n : DotDims S10000x64 S64x64 S10000x64 where
  lhsContracting := [1]
  rhsContracting := [1]
  lhsNonContracting := [0]
  rhsNonContracting := [0]
  lhsBatch := []
  rhsBatch := []
  wf := dot_S10000x64_S64x64_S10000x64_1_1_0_0_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S1x1250000 : Shape := ⟨2, ![1, 1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S100000x64, .f32⟩
  | 1 => ⟨S2x1250000, .i32⟩
  | 2 => ⟨S1250000, .f32⟩
  | 3 => ⟨S64x64, .f32⟩
  | 4 => ⟨S64, .f32⟩
  | 5 => ⟨S64x64, .f32⟩
  | 6 => ⟨S64, .f32⟩
  | 7 => ⟨S1x1250000, .i32⟩
  | 8 => ⟨S1250000, .i32⟩
  | 9 => ⟨S1x1250000, .i32⟩
  | 10 => ⟨S1250000, .i32⟩
  | 11 => ⟨S_, .f32⟩
  | 12 => ⟨S100000, .f32⟩
  | 13 => ⟨S1250000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .i1⟩
  | 21 => ⟨S100000, .f32⟩
  | 22 => ⟨S_, .f32⟩
  | 23 => ⟨S_, .f32⟩
  | 24 => ⟨S100000, .f32⟩
  | 25 => ⟨S100000, .f32⟩
  | 26 => ⟨S_, .i32⟩
  | 27 => ⟨S1250000, .i32⟩
  | 28 => ⟨S1250000, .i1⟩
  | 29 => ⟨S_, .i32⟩
  | 30 => ⟨S1250000, .i32⟩
  | 31 => ⟨S1250000, .i32⟩
  | 32 => ⟨S1250000, .i32⟩
  | 33 => ⟨S1250000x1, .i32⟩
  | 34 => ⟨S1250000, .f32⟩
  | 35 => ⟨S1250000, .f32⟩
  | 36 => ⟨S_, .i32⟩
  | 37 => ⟨S1250000, .i32⟩
  | 38 => ⟨S1250000, .i1⟩
  | 39 => ⟨S_, .i32⟩
  | 40 => ⟨S1250000, .i32⟩
  | 41 => ⟨S1250000, .i32⟩
  | 42 => ⟨S1250000, .i32⟩
  | 43 => ⟨S1250000x1, .i32⟩
  | 44 => ⟨S1250000, .f32⟩
  | 45 => ⟨S1250000, .f32⟩
  | 46 => ⟨S64x64, .f32⟩
  | 47 => ⟨S100000x64, .f32⟩
  | 48 => ⟨S_, .i32⟩
  | 49 => ⟨S1250000, .i32⟩
  | 50 => ⟨S1250000, .i1⟩
  | 51 => ⟨S_, .i32⟩
  | 52 => ⟨S1250000, .i32⟩
  | 53 => ⟨S1250000, .i32⟩
  | 54 => ⟨S1250000, .i32⟩
  | 55 => ⟨S1250000x1, .i32⟩
  | 56 => ⟨S1250000x64, .f32⟩
  | 57 => ⟨S1250000x1, .f32⟩
  | 58 => ⟨S1250000x64, .f32⟩
  | 59 => ⟨S1250000x64, .f32⟩
  | 60 => ⟨S_, .f32⟩
  | 61 => ⟨S100000x64, .f32⟩
  | 62 => ⟨S1250000x1, .i32⟩
  | 63 => ⟨S100000x64, .f32⟩
  | 64 => ⟨S100000, .f32⟩
  | 65 => ⟨S100000x1, .f32⟩
  | 66 => ⟨S100000x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S_, .f32⟩
  | 76 => ⟨S100000, .f32⟩
  | 77 => ⟨S1250000x1, .i32⟩
  | 78 => ⟨S100000, .f32⟩
  | 79 => ⟨S_, .f32⟩
  | 80 => ⟨S100000, .f32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1250000, .i32⟩
  | 92 => ⟨S1250000, .i1⟩
  | 93 => ⟨S_, .i32⟩
  | 94 => ⟨S1250000, .i32⟩
  | 95 => ⟨S1250000, .i32⟩
  | 96 => ⟨S1250000, .i32⟩
  | 97 => ⟨S1250000x1, .i32⟩
  | 98 => ⟨S1250000, .f32⟩
  | 99 => ⟨S1250000, .f32⟩
  | 100 => ⟨S_, .i32⟩
  | 101 => ⟨S1250000, .i32⟩
  | 102 => ⟨S1250000, .i1⟩
  | 103 => ⟨S_, .i32⟩
  | 104 => ⟨S1250000, .i32⟩
  | 105 => ⟨S1250000, .i32⟩
  | 106 => ⟨S1250000, .i32⟩
  | 107 => ⟨S1250000x1, .i32⟩
  | 108 => ⟨S1250000, .f32⟩
  | 109 => ⟨S1250000, .f32⟩
  | 110 => ⟨S64x64, .f32⟩
  | 111 => ⟨S100000x64, .f32⟩
  | 112 => ⟨S_, .i32⟩
  | 113 => ⟨S1250000, .i32⟩
  | 114 => ⟨S1250000, .i1⟩
  | 115 => ⟨S_, .i32⟩
  | 116 => ⟨S1250000, .i32⟩
  | 117 => ⟨S1250000, .i32⟩
  | 118 => ⟨S1250000, .i32⟩
  | 119 => ⟨S1250000x1, .i32⟩
  | 120 => ⟨S1250000x64, .f32⟩
  | 121 => ⟨S1250000x1, .f32⟩
  | 122 => ⟨S1250000x64, .f32⟩
  | 123 => ⟨S1250000x64, .f32⟩
  | 124 => ⟨S_, .f32⟩
  | 125 => ⟨S100000x64, .f32⟩
  | 126 => ⟨S1250000x1, .i32⟩
  | 127 => ⟨S100000x64, .f32⟩
  | _ => ⟨S100000x64, .f32⟩

abbrev hbmTy0_1 (i : Nat) : BufTy := match i % 128 with
  | 0 => ⟨S100000, .f32⟩
  | 1 => ⟨S100000x1, .f32⟩
  | 2 => ⟨S100000x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call1_cst : Ref sig .tc := ⟨.hbm, 72, rfl⟩
abbrev main_call1_v0 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S1250000 : S_.BroadcastsInDim S1250000 (![] : Fin 0 → Fin S1250000.rank)
  transposes_S64x64_S64x64_1_0 : S64x64.Transposes [1, 0] S64x64
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.KernelRun.lean ====
/-
  The idealized kernel's whole run with its result NAMED. The program is four kernel regions among stretches of host
  operations; the buffer contents at each boundary are a fold from the launch memory, and after the last region every
  unscoped buffer holds the last boundary's contents. Here the run is stated with the result buffer at that fold's value
  (what the later modules compute as a function of the arguments) beside the seven arguments as launched.
-/
import proofs.«129566_j64089501991220_2_alg».proof.Proof.Gen.KernelIdeal.Frame

set_option maxRecDepth 16384

noncomputable section

namespace Cert.Gcn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and EVERY unscoped buffer of every core ends at
    the last boundary's contents `W9`: the launch of the nine segments (five host stretches, four regions) over the
    thread states the segments are stated at, the last state read against the final memory. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run with the result buffer at `W9` and the seven argument arrays as launched (no host operation and no
    region writes an argument). -/
theorem run_named : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)
    (run_boundary m ρ)

end Cert.Gcn.Run

end
-- ==== Proof.Spec.lean ====
/-
  The mathematics of one graph-convolution layer on the extended reals, as functions of whole arrays read
  index by index: N = 100000 nodes, 64 features.

  * `rowsDot x w` is the product of `x` with the transpose of `w`: entry (r, c) is the sum over k of
    x[r, k] · w[c, k] (each output feature c is the inner product of node r's row with row c of the weight).
  * `combine agg h d b` adds to the aggregated neighbour term `agg` the self-loop term `h[r, c] · d[r]`
    (`d` a column, one entry per node) and then the bias `b[c]` (`b` a row): (agg + h·d) + b, in this order.
  * `combineRelu` is the same followed by the maximum with zero.
-/
import Idealize.ShloMosaic.PureOps.Ideal
import Idealize.ShloMosaic.Lib.ValueIdx

noncomputable section

namespace Cert.Gcn

open Idealize.ShloMosaic Idealize.ShloMosaic.ValueIdx

abbrev SN64 : Shape := ⟨2, ![100000, 64]⟩
abbrev S6464 : Shape := ⟨2, ![64, 64]⟩
abbrev SN1 : Shape := ⟨2, ![100000, 1]⟩
abbrev S164 : Shape := ⟨2, ![1, 64]⟩

/-- Node coordinate of an index of an [N, 64] array, as a literal `Fin 100000`. -/
abbrev rowOf (i : SN64.Idx) : Fin 100000 := ⟨(i 0).val, (i 0).isLt⟩
/-- Feature coordinate of an index of an [N, 64] array, as a literal `Fin 64`. -/
abbrev colOf (i : SN64.Idx) : Fin 64 := ⟨(i 1).val, (i 1).isLt⟩

/-- x · wᵀ: entry (r, c) is Σ_k x[r, k] · w[c, k]. -/
def rowsDot (x : SN64.Idx → EReal) (w : S6464.Idx → EReal) : SN64.Idx → EReal :=
  fun i => ∑ k : Fin 64, x (ix2 (rowOf i) k) * w (ix2 (colOf i) k)

/-- (agg + h · d) + b with `d` one entry per node and `b` one entry per feature. -/
def combine (agg h : SN64.Idx → EReal) (d : SN1.Idx → EReal) (b : S164.Idx → EReal) : SN64.Idx → EReal :=
  fun i => (agg i + h i * d (ix2 (rowOf i) (0 : Fin 1))) + b (ix2 (0 : Fin 1) (colOf i))

/-- `combine` followed by the maximum with zero (the zero written as the f32 word of +0.0). -/
def combineRelu (agg h : SN64.Idx → EReal) (d : SN1.Idx → EReal) (b : S164.Idx → EReal) : SN64.Idx → EReal :=
  fun i => max (combine agg h d b i) (Ideal.ofBits .f32 0x00000000#32)

end Cert.Gcn

end
-- ==== Proof.Layers.lean ====
/-
  The host side of a layer, shared by both layers and both programs, and the whole two-layer network as one function.

  * `aggregate h src dst coef`: gather row `src[e]` of `h` for every edge e (a negative index wrapped once by
    N = 100000, as jnp's indexing does), scale it by the edge's coefficient `coef[e]`, and add it into row `dst[e]` of an
    array of zeros. The gather's and the scatter-add's treatment of indices outside 0 … N-1 is whatever the host operations
    do: both programs apply the SAME operations, so nothing here depends on it.
  * `asColumn`, `asRow`: the [N] normalisation as an [N, 1] column and a [64] bias as a [1, 64] row (reshapes).
  * `network`: layer 1 = rowsDot, aggregate, combine with the maximum with zero; layer 2 = rowsDot, aggregate, combine.
-/
import proofs.«129566_j64089501991220_2_alg».proof.KernelIdeal
import proofs.«129566_j64089501991220_2_alg».proof.Proof.Gen.KernelIdeal
import proofs.«129566_j64089501991220_2_alg».proof.Proof.Spec

noncomputable section

namespace Cert.Gcn

open Cert.KernelIdeal Cert.KernelIdeal.Gen Idealize.ShloMosaic

/-- Σ over the edges e with destination r of coef[e] · h[src[e], ·], as the host's gather, product and scatter-add. -/
def aggregate (h : (⟨S100000x64, .f32⟩ : BufTy).Contents (Elt Ideal))
    (src dst : (⟨S1250000, .i32⟩ : BufTy).Contents (Elt Ideal))
    (coef : (⟨S1250000, .f32⟩ : BufTy).Contents (Elt Ideal)) : (⟨S100000x64, .f32⟩ : BufTy).Contents (Elt Ideal) :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 dst)
    (mulf
      (Host.gather gather_S100000x64_S1250000x1_S1250000x64_1_0_n_n_0_1_164 h
        (broadcastInDim S1250000x1 ![0] bcast_S1250000_S1250000x1_0
          (select (cmpi .slt src (broadcastInDim S1250000 ![] bcast_S_S1250000 (constantI S_ 32 0#32)))
            (addi src (broadcastInDim S1250000 ![] bcast_S_S1250000 (constantI S_ 32 100000#32))) src)))
      (broadcastInDim S1250000x64 ![0, 1] bcast_S1250000x1_S1250000x64_0_1
        (broadcastInDim S1250000x1 ![0] bcast_S1250000_S1250000x1_0 coef)))

/-- The [N] squared normalisation as an [N, 1] column. -/
def asColumn (d : (⟨S100000, .f32⟩ : BufTy).Contents (Elt Ideal)) : (⟨S100000x1, .f32⟩ : BufTy).Contents (Elt Ideal) :=
  shapeCast S100000x1 d shapeCasts_S100000_S100000x1

/-- A [64] bias as a [1, 64] row. -/
def asRow (b : (⟨S64, .f32⟩ : BufTy).Contents (Elt Ideal)) : (⟨S1x64, .f32⟩ : BufTy).Contents (Elt Ideal) :=
  shapeCast S1x64 b shapeCasts_S64_S1x64

/-- One layer before its activation: transform, aggregate over the edges, add the self-loop term and the bias. -/
def layer (x : SN64.Idx → EReal) (w : S6464.Idx → EReal) (b : (⟨S64, .f32⟩ : BufTy).Contents (Elt Ideal))
    (src dst : (⟨S1250000, .i32⟩ : BufTy).Contents (Elt Ideal)) (coef : (⟨S1250000, .f32⟩ : BufTy).Contents (Elt Ideal))
    (dsq : (⟨S100000, .f32⟩ : BufTy).Contents (Elt Ideal)) : SN64.Idx → EReal :=
  combine (aggregate (rowsDot x w) src dst coef) (rowsDot x w) (asColumn dsq) (asRow b)

/-- The first layer with its activation (the maximum with zero). -/
def layerRelu (x : SN64.Idx → EReal) (w : S6464.Idx → EReal) (b : (⟨S64, .f32⟩ : BufTy).Contents (Elt Ideal))
    (src dst : (⟨S1250000, .i32⟩ : BufTy).Contents (Elt Ideal)) (coef : (⟨S1250000, .f32⟩ : BufTy).Contents (Elt Ideal))
    (dsq : (⟨S100000, .f32⟩ : BufTy).Contents (Elt Ideal)) : SN64.Idx → EReal :=
  combineRelu (aggregate (rowsDot x w) src dst coef) (rowsDot x w) (asColumn dsq) (asRow b)

/-- The two-layer network. -/
def network (x : SN64.Idx → EReal) (w1 : S6464.Idx → EReal) (b1 : (⟨S64, .f32⟩ : BufTy).Contents (Elt Ideal))
    (w2 : S6464.Idx → EReal) (b2 : (⟨S64, .f32⟩ : BufTy).Contents (Elt Ideal))
    (src dst : (⟨S1250000, .i32⟩ : BufTy).Contents (Elt Ideal)) (coef : (⟨S1250000, .f32⟩ : BufTy).Contents (Elt Ideal))
    (dsq : (⟨S100000, .f32⟩ : BufTy).Contents (Elt Ideal)) : SN64.Idx → EReal :=
  layer (layerRelu x w1 b1 src dst coef dsq) w2 b2 src dst coef dsq

end Cert.Gcn

end
-- ==== Proof.MatmulBlock.lean ====
/-
  One block of the dense transform. The matmul kernel loads a block of 10000 node rows `x` and the whole
  64 × 64 weight `w`, rounds both to bf16 (the identity on the extended reals) and contracts axis 1 of both into a
  zero accumulator: entry (p, c) of what it stores is Σ_k x[p, k] · w[c, k]. Both matmul kernels (the two
  layers) compute this; the second only re-casts its block to the same shape first.
-/
import proofs.«129566_j64089501991220_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Gcn.Block

open Cert.KernelIdeal Cert.KernelIdeal.Gen Idealize.ShloMosaic Idealize.ShloMosaic.ValueIdx

/-- The left operand's row coordinate is the output's row. -/
theorem lhs_row (j : S10000x64.Idx) (q : dot_S10000x64_S64x64_S10000x64_1_1_0_0_n_n.contr.Idx) :
    (dot_S10000x64_S64x64_S10000x64_1_1_0_0_n_n.lhsIdx j q 0).val = (j 0).val := by
  unfold DotDims.lhsIdx
  rw [dif_neg (show ¬(0 : Fin S10000x64.rank) ∈ dot_S10000x64_S64x64_S10000x64_1_1_0_0_n_n.lhsBatch by decide),
    dif_pos (show (0 : Fin S10000x64.rank) ∈ dot_S10000x64_S64x64_S10000x64_1_1_0_0_n_n.lhsNonContracting by decide)]
  rfl

/-- The left operand's column coordinate is the contraction position. -/
theorem lhs_col (j : S10000x64.Idx) (q : dot_S10000x64_S64x64_S10000x64_1_1_0_0_n_n.contr.Idx) :
    (dot_S10000x64_S64x64_S10000x64_1_1_0_0_n_n.lhsIdx j q 1).val = (q ⟨0, by decide⟩).val :=
  dot_S10000x64_S64x64_S10000x64_1_1_0_0_n_n.lhsIdx_val_of_single rfl j q

/-- The right operand's row coordinate is the output's column. -/
theorem rhs_row (j : S10000x64.Idx) (q : dot_S10000x64_S64x64_S10000x64_1_1_0_0_n_n.contr.Idx) :
    (dot_S10000x64_S64x64_S10000x64_1_1_0_0_n_n.rhsIdx j q 0).val = (j 1).val := by
  unfold DotDims.rhsIdx
  rw [dif_neg (show ¬(0 : Fin S64x64.rank) ∈ dot_S10000x64_S64x64_S10000x64_1_1_0_0_n_n.rhsBatch by decide),
    dif_pos (show (0 : Fin S64x64.rank) ∈ dot_S10000x64_S64x64_S10000x64_1_1_0_0_n_n.rhsNonContracting by decide)]
  rfl

/-- The right operand's column coordinate is the contraction position. -/
theorem rhs_col (j : S10000x64.Idx) (q : dot_S10000x64_S64x64_S10000x64_1_1_0_0_n_n.contr.Idx) :
    (dot_S10000x64_S64x64_S10000x64_1_1_0_0_n_n.rhsIdx j q 1).val = (q ⟨0, by decide⟩).val :=
  dot_S10000x64_S64x64_S10000x64_1_1_0_0_n_n.rhsIdx_val_of_single rfl j q

/-- The contraction into the zero accumulator at an index: Σ_k x[p, k] · w[c, k]. -/
theorem blockDot_apply (x : FVec Ideal S10000x64 .bf16) (w : FVec Ideal S64x64 .bf16) (j : S10000x64.Idx) :
    matmul (F := Ideal) dot_S10000x64_S64x64_S10000x64_1_1_0_0_n_n none x w (constant (F := Ideal) S10000x64 .f32 0x00000000#32) j
      = ∑ k : Fin 64, x (ix2 (⟨(j 0).val, (j 0).isLt⟩ : Fin 10000) k) * w (ix2 (⟨(j 1).val, (j 1).isLt⟩ : Fin 64) k) := by
  refine (Ideal.matmul_constant_zero_apply dot_S10000x64_S64x64_S10000x64_1_1_0_0_n_n none x w j).trans ?_
  rw [← Equiv.sum_comp (contrEquiv1 dot_S10000x64_S64x64_S10000x64_1_1_0_0_n_n 64 rfl rfl).symm]
  refine Finset.sum_congr rfl fun k _ => ?_
  have hk := contrEquiv1_symm_val dot_S10000x64_S64x64_S10000x64_1_1_0_0_n_n 64 rfl rfl k
  have el : dot_S10000x64_S64x64_S10000x64_1_1_0_0_n_n.lhsIdx j ((contrEquiv1 dot_S10000x64_S64x64_S10000x64_1_1_0_0_n_n 64 rfl rfl).symm k)
      = ix2 (⟨(j 0).val, (j 0).isLt⟩ : Fin 10000) k := funext fun a => Fin.ext (by
    match a with
    | ⟨0, _⟩ => exact lhs_row _ _
    | ⟨1, _⟩ => exact (lhs_col _ _).trans hk)
  have er : dot_S10000x64_S64x64_S10000x64_1_1_0_0_n_n.rhsIdx j ((contrEquiv1 dot_S10000x64_S64x64_S10000x64_1_1_0_0_n_n 64 rfl rfl).symm k)
      = ix2 (⟨(j 1).val, (j 1).isLt⟩ : Fin 64) k := funext fun a => Fin.ext (by
    match a with
    | ⟨0, _⟩ => exact rhs_row _ _
    | ⟨1, _⟩ => exact (rhs_col _ _).trans hk)
  rw [el, er]

/-- What the first layer's matmul kernel stores, at an index. -/
theorem pay0_apply (x : Vec Ideal S10000x64 .f32) (w : Vec Ideal S64x64 .f32) (j : S10000x64.Idx) :
    k0_pay1 (F := Ideal) x w j
      = ∑ k : Fin 64, x (ix2 (⟨(j 0).val, (j 0).isLt⟩ : Fin 10000) k) * w (ix2 (⟨(j 1).val, (j 1).isLt⟩ : Fin 64) k) := by
  unfold k0_pay1
  exact blockDot_apply _ _ j

/-- What the second layer's matmul kernel stores, at an index: the same sum. -/
theorem pay2_apply (x : Vec Ideal S10000x64 .f32) (w : Vec Ideal S64x64 .f32) (j : S10000x64.Idx) :
    k2_pay1 (F := Ideal) x w j
      = ∑ k : Fin 64, x (ix2 (⟨(j 0).val, (j 0).isLt⟩ : Fin 10000) k) * w (ix2 (⟨(j 1).val, (j 1).isLt⟩ : Fin 64) k) := by
  unfold k2_pay1
  refine (blockDot_apply _ _ j).trans ?_
  simp only [shapeCast_self]
  rfl

end Cert.Gcn.Block

end
-- ==== Proof.Region0.lean ====
/-
  The first layer's dense transform over its grid. Grid point t loads node rows 10000·t … 10000·t + 9999 of the
  feature array and the whole weight, and writes back the same rows of the result; the ten blocks tile the
  100000 rows. So whatever array `x` and weight `w` the region finds, it leaves `rowsDot x w` in its output array.
-/
import proofs.«129566_j64089501991220_2_alg».proof.Proof.Gen.KernelIdeal.Frame
import proofs.«129566_j64089501991220_2_alg».proof.Proof.Spec
import proofs.«129566_j64089501991220_2_alg».proof.Proof.MatmulBlock
import Idealize.ShloMosaic.Lib.Pipeline.Value
import Idealize.ShloMosaic.Lib.ValueIdx

noncomputable section

namespace Cert.Gcn.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature block and the output block are block t of the rows, the
    weight's block is the whole weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `rowsDot` of the two arrays as the region finds them. -/
theorem flushed_eq (c : Dev nD) (t : Fin cfg0.N) :
    (dat0 V c).flushed 2 t
      = ((cfg0.win 2).blk t).view.read (Elt Ideal) (rowsDot (V c main_arg0) (V c main_arg3)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  funext j
  show k0_pay1 (iblk0 V c 0 t) (iblk0 V c 1 t) j = rowsDot (V c main_arg0) (V c main_arg3) (((cfg0.win 2).blk t).view.emb j)
  refine (Block.pay0_apply (iblk0 V c 0 t) (iblk0 V c 1 t) j).trans ?_
  unfold rowsDot
  refine Finset.sum_congr rfl fun k _ => ?_
  have hj0 : (j 0).val < 10000 := (j 0).isLt
  have hj1 : (j 1).val < 64 := (j 1).isLt
  have hx : iblk0 V c 0 t (ix2 (⟨(j 0).val, (j 0).isLt⟩ : Fin 10000) k)
      = V c main_arg0 (ix2 (rowOf (((cfg0.win 2).blk t).view.emb j)) k) := by
    show V c main_arg0 (((cfg0.win 0).blk t).view.emb (ix2 (⟨(j 0).val, (j 0).isLt⟩ : Fin 10000) k)) = _
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      rw [e0, e4]
    | ⟨1, _⟩ =>
      show win0_0.index t (1 : Fin 2) * 64 + 1 * k.val = k.val
      rw [e1]; omega
  have hw : iblk0 V c 1 t (ix2 (⟨(j 1).val, (j 1).isLt⟩ : Fin 64) k)
      = V c main_arg3 (ix2 (colOf (((cfg0.win 2).blk t).view.emb j)) k) := by
    show V c main_arg3 (((cfg0.win 1).blk t).view.emb (ix2 (⟨(j 1).val, (j 1).isLt⟩ : Fin 64) k)) = _
    refine congrArg (V c main_arg3) (funext fun a => Fin.ext ?_)
    match a with
    | ⟨0, _⟩ =>
      show win0_1.index t (0 : Fin 2) * 64 + 1 * (j 1).val = win0_2.index t (1 : Fin 2) * 64 + 1 * (j 1).val
      rw [e2, e5]
    | ⟨1, _⟩ =>
      show win0_1.index t (1 : Fin 2) * 64 + 1 * k.val = k.val
      rw [e3]; omega
  rw [hx, hw]

/-- An index of the result array is in point t's block iff its coordinates are in the block's ranges. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row r lies in the block of point r / 10000. -/
theorem cover (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  have hN : cfg0.N = 10 := N_0
  have hlt : (i 0).val / 10000 < cfg0.N := by rw [hN]; omega
  obtain ⟨-, -, -, -, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 64 ≤ (i 1).val
      ∧ (i 1).val < win0_2.index ⟨(i 0).val / 10000, hlt⟩ (1 : Fin 2) * 64 + 64
    rw [e5]; omega

/-- The region's output array ends holding `rowsDot` of the feature array and the weight it found. -/
theorem final (c : Dev nD) :
    (dat0 V c).arrAt 2 cfg0.N = rowsDot (V c main_arg0) (V c main_arg3) :=
  (dat0 V c).arrAt_eq_of_cover 2 (rowsDot (V c main_arg0) (V c main_arg3)) (fun t _ => flushed_eq V c t) cover

end Cert.Gcn.Region0

end
-- ==== Proof.CombineBlock.lean ====
/-
  One block of the elementwise combine stage. The combine kernel loads a block of 2000 node rows of the aggregated
  term `agg` and of the transformed features `h`, the matching 2000 entries of the squared normalisation as a column
  `d`, and the bias as a row `b`; it stores (agg + h · d) + b entry by entry, `d` spread along the features and `b` along
  the nodes. The first layer's kernel then takes the maximum with zero; the second layer's stores the sum as it is.
-/
import proofs.«129566_j64089501991220_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Gcn.Block

open Cert.KernelIdeal Cert.KernelIdeal.Gen Idealize.ShloMosaic Idealize.ShloMosaic.ValueIdx

/-- A column of 2000 entries spread along the 64 features, read at (p, c): the column's entry p. -/
theorem colSpread_apply (v : FVec Ideal S2000x1 .f32) (j : S2000x64.Idx) :
    broadcastTo S2000x64 v broadcasts_S2000x1_S2000x64 j = v (ix2 (⟨(j 0).val, (j 0).isLt⟩ : Fin 2000) (0 : Fin 1)) :=
  broadcastTo_apply v broadcasts_S2000x1_S2000x64 j _ (fun a => by
    match a with
    | ⟨0, _⟩ => rw [if_neg (by show ¬ (2000 : Nat) = 1; decide)]; rfl
    | ⟨1, _⟩ => rw [if_pos (by show (1 : Nat) = 1; rfl)]; rfl)

/-- A row of 64 entries spread along the 2000 nodes, read at (p, c): the row's entry c. -/
theorem rowSpread_apply (v : FVec Ideal S1x64 .f32) (j : S2000x64.Idx) :
    broadcastTo S2000x64 v broadcasts_S1x64_S2000x64 j = v (ix2 (0 : Fin 1) (⟨(j 1).val, (j 1).isLt⟩ : Fin 64)) :=
  broadcastTo_apply v broadcasts_S1x64_S2000x64 j _ (fun a => by
    match a with
    | ⟨0, _⟩ => rw [if_pos (by show (1 : Nat) = 1; rfl)]; rfl
    | ⟨1, _⟩ => rw [if_neg (by show ¬ (64 : Nat) = 1; decide)]; rfl)

/-- What the second layer's combine kernel stores, at an index: (agg + h · d) + b. -/
theorem pay3_apply (agg h : Vec Ideal S2000x64 .f32) (d : Vec Ideal S2000x1 .f32) (b : Vec Ideal S1x64 .f32) (j : S2000x64.Idx) :
    k3_pay1 (F := Ideal) agg h d b j
      = (agg j + h j * d (ix2 (⟨(j 0).val, (j 0).isLt⟩ : Fin 2000) (0 : Fin 1))) + b (ix2 (0 : Fin 1) (⟨(j 1).val, (j 1).isLt⟩ : Fin 64)) := by
  unfold k3_pay1
  simp only [shapeCast_self]
  show (agg j + h j * broadcastTo S2000x64 d broadcasts_S2000x1_S2000x64 j) + broadcastTo S2000x64 b broadcasts_S1x64_S2000x64 j = _
  rw [colSpread_apply, rowSpread_apply]

/-- What the first layer's combine kernel stores, at an index: the same, then the maximum with zero. -/
theorem pay1_apply (agg h : Vec Ideal S2000x64 .f32) (d : Vec Ideal S2000x1 .f32) (b : Vec Ideal S1x64 .f32) (j : S2000x64.Idx) :
    k1_pay1 (F := Ideal) agg h d b j
      = max ((agg j + h j * d (ix2 (⟨(j 0).val, (j 0).isLt⟩ : Fin 2000) (0 : Fin 1))) + b (ix2 (0 : Fin 1) (⟨(j 1).val, (j 1).isLt⟩ : Fin 64)))
          (Ideal.ofBits .f32 0x00000000#32) := by
  unfold k1_pay1
  simp only [shapeCast_self]
  show max ((agg j + h j * broadcastTo S2000x64 d broadcasts_S2000x1_S2000x64 j) + broadcastTo S2000x64 b broadcasts_S1x64_S2000x64 j) _ = _
  rw [colSpread_apply, rowSpread_apply]
  rfl

end Cert.Gcn.Block

end
-- ==== Proof.Region1.lean ====
/-
  The first layer's combine stage over its grid. Grid point t loads node rows 2000·t … 2000·t + 1999 of the
  aggregated term and of the transformed features, the same 2000 entries of the normalisation column, and the whole
  bias row, and writes back the same rows of the result; the fifty blocks tile the 100000 rows. So whatever four
  arrays the region finds, it leaves `combineRelu` of them (the sum, then the maximum with zero) in its output array.
-/
import proofs.«129566_j64089501991220_2_alg».proof.Proof.Gen.KernelIdeal.Frame
import proofs.«129566_j64089501991220_2_alg».proof.Proof.Spec
import proofs.«129566_j64089501991220_2_alg».proof.Proof.CombineBlock
import Idealize.ShloMosaic.Lib.Pipeline.Value
import Idealize.ShloMosaic.Lib.ValueIdx

noncomputable section

namespace Cert.Gcn.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregated term, the features, the normalisation column and the output
    all move to block t of the rows; the bias row's block is the whole row. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of `combineRelu` of the four arrays as the region finds them. -/
theorem flushed_eq (c : Dev nD) (t : Fin cfg1.N) :
    (dat1 V c).flushed 4 t
      = ((cfg1.win 4).blk t).view.read (Elt Ideal)
          (combineRelu (V c main_v43) (V c main_v30) (V c main_v44) (V c main_v45)) := by
  show (cfg1.win 4).cut (grid1.coords t) ((dat1 V c).after 4 t) = _
  rw [after1_4]
  unfold out1_4
  rw [View.canon_unit_zero hz]
  simp only [View.ld_unit_zero (S := S2000x64) hz, View.ld_unit_zero (S := S2000x1) hz, View.ld_unit_zero (S := S1x64) hz]
  obtain ⟨e0, e1, e2, e3, e4, e5, e6, e7, e8, e9⟩ := idx_facts t
  funext j
  show k1_pay1 (iblk1 V c 0 t) (iblk1 V c 1 t) (iblk1 V c 2 t) (iblk1 V c 3 t) j
    = combineRelu (V c main_v43) (V c main_v30) (V c main_v44) (V c main_v45) (((cfg1.win 4).blk t).view.emb j)
  refine (Block.pay1_apply (iblk1 V c 0 t) (iblk1 V c 1 t) (iblk1 V c 2 t) (iblk1 V c 3 t) j).trans ?_
  unfold combineRelu combine
  have hj0 : (j 0).val < 2000 := (j 0).isLt
  have hj1 : (j 1).val < 64 := (j 1).isLt
  have hagg : iblk1 V c 0 t j = V c main_v43 (((cfg1.win 4).blk t).view.emb j) := by
    show V c main_v43 (((cfg1.win 0).blk t).view.emb j) = _
    refine congrArg (V c main_v43) (funext fun a => Fin.ext ?_)
    match a with
    | ⟨0, _⟩ =>
      show win1_0.index t (0 : Fin 2) * 2000 + 1 * (j 0).val = win1_4.index t (0 : Fin 2) * 2000 + 1 * (j 0).val
      rw [e0, e8]
    | ⟨1, _⟩ =>
      show win1_0.index t (1 : Fin 2) * 64 + 1 * (j 1).val = win1_4.index t (1 : Fin 2) * 64 + 1 * (j 1).val
      rw [e1, e9]
  have hh : iblk1 V c 1 t j = V c main_v30 (((cfg1.win 4).blk t).view.emb j) := by
    show V c main_v30 (((cfg1.win 1).blk t).view.emb j) = _
    refine congrArg (V c main_v30) (funext fun a => Fin.ext ?_)
    match a with
    | ⟨0, _⟩ =>
      show win1_1.index t (0 : Fin 2) * 2000 + 1 * (j 0).val = win1_4.index t (0 : Fin 2) * 2000 + 1 * (j 0).val
      rw [e2, e8]
    | ⟨1, _⟩ =>
      show win1_1.index t (1 : Fin 2) * 64 + 1 * (j 1).val = win1_4.index t (1 : Fin 2) * 64 + 1 * (j 1).val
      rw [e3, e9]
  have hd : iblk1 V c 2 t (ix2 (⟨(j 0).val, (j 0).isLt⟩ : Fin 2000) (0 : Fin 1))
      = V c main_v44 (ix2 (rowOf (((cfg1.win 4).blk t).view.emb j)) (0 : Fin 1)) := by
    show V c main_v44 (((cfg1.win 2).blk t).view.emb (ix2 (⟨(j 0).val, (j 0).isLt⟩ : Fin 2000) (0 : Fin 1))) = _
    refine congrArg (V c main_v44) (funext fun a => Fin.ext ?_)
    match a with
    | ⟨0, _⟩ =>
      show win1_2.index t (0 : Fin 2) * 2000 + 1 * (j 0).val = win1_4.index t (0 : Fin 2) * 2000 + 1 * (j 0).val
      rw [e4, e8]
    | ⟨1, _⟩ =>
      show win1_2.index t (1 : Fin 2) * 1 + 1 * 0 = 0
      rw [e5]
  have hb : iblk1 V c 3 t (ix2 (0 : Fin 1) (⟨(j 1).val, (j 1).isLt⟩ : Fin 64))
      = V c main_v45 (ix2 (0 : Fin 1) (colOf (((cfg1.win 4).blk t).view.emb j))) := by
    show V c main_v45 (((cfg1.win 3).blk t).view.emb (ix2 (0 : Fin 1) (⟨(j 1).val, (j 1).isLt⟩ : Fin 64))) = _
    refine congrArg (V c main_v45) (funext fun a => Fin.ext ?_)
    match a with
    | ⟨0, _⟩ =>
      show win1_3.index t (0 : Fin 2) * 1 + 1 * 0 = 0
      rw [e6]
    | ⟨1, _⟩ =>
      show win1_3.index t (1 : Fin 2) * 64 + 1 * (j 1).val = win1_4.index t (1 : Fin 2) * 64 + 1 * (j 1).val
      rw [e7, e9]
  rw [hagg, hh, hd, hb]

/-- An index of the result array is in point t's block iff its coordinates are in the block's ranges. -/
theorem mem_blk (t : Fin cfg1.N) (i : S100000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_v46).slice (win1_4.rect t)).set ↔ _
  rw [View.set_slice_whole, Rect.mem_set_unit]
  exact Iff.rfl

/-- Row r lies in the block of point r / 2000. -/
theorem cover (i : S100000x64.Idx) :
    ∃ t : Fin cfg1.N, (cfg1.win 4).flush t = true ∧ i ∈ ((cfg1.win 4).blk t).view.set := by
  have h0 : (i 0).val < 100000 := (i 0).isLt
  have h1 : (i 1).val < 64 := (i 1).isLt
  have hN : cfg1.N = 50 := N_1
  have hlt : (i 0).val / 2000 < cfg1.N := by rw [hN]; omega
  obtain ⟨-, -, -, -, -, -, -, -, e8, e9⟩ := idx_facts ⟨(i 0).val / 2000, hlt⟩
  refine ⟨⟨(i 0).val / 2000, hlt⟩, flush1_4 _, ?_⟩
  rw [mem_blk]
  intro a
  match a with
  | ⟨0, _⟩ =>
    show win1_4.index ⟨(i 0).val / 2000, hlt⟩ (0 : Fin 2) * 2000 ≤ (i 0).val
      ∧ (i 0).val < win1_4.index ⟨(i 0).val / 2000, hlt⟩ (0 : Fin 2) * 2000 + 2000
    rw [e8]; show (i 0).val / 2000 * 2000 ≤ (i 0).val ∧ (i 0).val < (i 0).val / 2000 * 2000 + 2000; omega
  | ⟨1, _⟩ =>
    show win1_4.index ⟨(i 0).val / 2000, hlt⟩ (1 : Fin 2) * 64 ≤ (i 1).val
      ∧ (i 1).val < win1_4.index ⟨(i 0).val / 2000, hlt⟩ (1 : Fin 2) * 64 + 64
    rw [e9]; omega

/-- The region's output array ends holding `combineRelu` of the four arrays it found. -/
theorem final (c : Dev nD) :
    (dat1 V c).arrAt 4 cfg1.N = combineRelu (V c main_v43) (V c main_v30) (V c main_v44) (V c main_v45) :=
  (dat1 V c).arrAt_eq_of_cover 4 (combineRelu (V c main_v43) (V c main_v30) (V c main_v44) (V c main_v45))
    (fun t _ => flushed_eq V c t) cover

end Cert.Gcn.Region1

end
-- ==== Proof.Region2.lean ====
/-
  The second layer's dense transform over its grid. Grid point t loads node rows 10000·t … 10000·t + 9999 of the
  feature array and the whole weight, and writes back the same rows of the result; the ten blocks tile the
  100000 rows. So whatever array `x` and weight `w` the region finds, it leaves `rowsDot x w` in its output array.
-/
import proofs.«129566_j64089501991220_2_alg».proof.Proof.Gen.KernelIdeal.Frame
import proofs.«129566_j64089501991220_2_alg».proof.Proof.Spec
import proofs.«129566_j64089501991220_2_alg».proof.Proof.MatmulBlock
import Idealize.ShloMosaic.Lib.Pipeline.Value
import Idealize.ShloMosaic.Lib.ValueIdx

noncomputable section

namespace Cert.Gcn.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature block and the output block are block t of the rows, the
    weight's block is the whole weight. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of `rowsDot` of the two arrays as the region finds them. -/
theorem flushed_eq (c : Dev nD) (t : Fin cfg2.N) :
    (dat2 V c).flushed 2 t
      = ((cfg2.win 2).blk t).view.read (Elt Ideal) (rowsDot (V c main_v46) (V c main_arg5)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  funext j
  show k2_pay1 (iblk2 V c 0 t) (iblk2 V c 1 t) j = rowsDot (V c main_v46) (V c main_arg5) (((cfg2.win 2).blk t).view.emb j)
  refine (Block.pay2_apply (iblk2 V c 0 t) (iblk2 V c 1 t) j).trans ?_
  unfold rowsDot
  refine Finset.sum_congr rfl fun k _ => ?_
  have hj0 : (j 0).val < 10000 := (j 0).isLt
  have hj1 : (j 1).val < 64 := (j 1).isLt
  have hx : iblk2 V c 0 t (ix2 (⟨(j 0).val, (j 0).isLt⟩ : Fin 10000) k)
      = V c main_v46 (ix2 (rowOf (((cfg2.win 2).blk t).view.emb j)) k) := by
    show V c main_v46 (((cfg2.win 0).blk t).view.emb (ix2 (⟨(j 0).val, (j 0).isLt⟩ : Fin 10000) k)) = _
    refine congrArg (V c main_v46) (funext fun a => Fin.ext ?_)
    match a with
    | ⟨0, _⟩ =>
      show win2_0.index t (0 : Fin 2) * 10000 + 1 * (j 0).val = win2_2.index t (0 : Fin 2) * 10000 + 1 * (j 0).val
      rw [e0, e4]
    | ⟨1, _⟩ =>
      show win2_0.index t (1 : Fin 2) * 64 + 1 * k.val = k.val
      rw [e1]; omega
  have hw : iblk2 V c 1 t (ix2 (⟨(j 1).val, (j 1).isLt⟩ : Fin 64) k)
      = V c main_arg5 (ix2 (colOf (((cfg2.win 2).blk t).view.emb j)) k) := by
    show V c main_arg5 (((cfg2.win 1).blk t).view.emb (ix2 (⟨(j 1).val, (j 1).isLt⟩ : Fin 64) k)) = _
    refine congrArg (V c main_arg5) (funext fun a => Fin.ext ?_)
    match a with
    | ⟨0, _⟩ =>
      show win2_1.index t (0 : Fin 2) * 64 + 1 * (j 1).val = win2_2.index t (1 : Fin 2) * 64 + 1 * (j 1).val
      rw [e2, e5]
    | ⟨1, _⟩ =>
      show win2_1.index t (1 : Fin 2) * 64 + 1 * k.val = k.val
      rw [e3]; omega
  rw [hx, hw]

/-- An index of the result array is in point t's block iff its coordinates are in the block's ranges. -/
theorem mem_blk (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v47).slice (win2_2.rect t)).set ↔ _
  rw [View.set_slice_whole, Rect.mem_set_unit]
  exact Iff.rfl

/-- Row r lies in the block of point r / 10000. -/
theorem cover (i : S100000x64.Idx) :
    ∃ t : Fin cfg2.N, (cfg2.win 2).flush t = true ∧ i ∈ ((cfg2.win 2).blk t).view.set := by
  have h0 : (i 0).val < 100000 := (i 0).isLt
  have h1 : (i 1).val < 64 := (i 1).isLt
  have hN : cfg2.N = 10 := N_2
  have hlt : (i 0).val / 10000 < cfg2.N := by rw [hN]; omega
  obtain ⟨-, -, -, -, e4, e5⟩ := idx_facts ⟨(i 0).val / 10000, hlt⟩
  refine ⟨⟨(i 0).val / 10000, hlt⟩, flush2_2 _, ?_⟩
  rw [mem_blk]
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hlt⟩ (1 : Fin 2) * 64 ≤ (i 1).val
      ∧ (i 1).val < win2_2.index ⟨(i 0).val / 10000, hlt⟩ (1 : Fin 2) * 64 + 64
    rw [e5]; omega

/-- The region's output array ends holding `rowsDot` of the feature array and the weight it found. -/
theorem final (c : Dev nD) :
    (dat2 V c).arrAt 2 cfg2.N = rowsDot (V c main_v46) (V c main_arg5) :=
  (dat2 V c).arrAt_eq_of_cover 2 (rowsDot (V c main_v46) (V c main_arg5)) (fun t _ => flushed_eq V c t) cover

end Cert.Gcn.Region2

end
-- ==== Proof.Region3.lean ====
/-
  The second layer's combine stage over its grid. Grid point t loads node rows 2000·t … 2000·t + 1999 of the
  aggregated term and of the transformed features, the same 2000 entries of the normalisation column, and the whole
  bias row, and writes back the same rows of the result; the fifty blocks tile the 100000 rows. So whatever four
  arrays the region finds, it leaves `combine` of them in its output array.
-/
import proofs.«129566_j64089501991220_2_alg».proof.Proof.Gen.KernelIdeal.Frame
import proofs.«129566_j64089501991220_2_alg».proof.Proof.Spec
import proofs.«129566_j64089501991220_2_alg».proof.Proof.CombineBlock
import Idealize.ShloMosaic.Lib.Pipeline.Value
import Idealize.ShloMosaic.Lib.ValueIdx

noncomputable section

namespace Cert.Gcn.Region3

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregated term, the features, the normalisation column and the output
    all move to block t of the rows; the bias row's block is the whole row. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of `combine` of the four arrays as the region finds them. -/
theorem flushed_eq (c : Dev nD) (t : Fin cfg3.N) :
    (dat3 V c).flushed 4 t
      = ((cfg3.win 4).blk t).view.read (Elt Ideal)
          (combine (V c main_v60) (V c main_v47) (V c main_v61) (V c main_v62)) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  obtain ⟨e0, e1, e2, e3, e4, e5, e6, e7, e8, e9⟩ := idx_facts t
  funext j
  show k3_pay1 (iblk3 V c 0 t) (iblk3 V c 1 t) (iblk3 V c 2 t) (iblk3 V c 3 t) j
    = combine (V c main_v60) (V c main_v47) (V c main_v61) (V c main_v62) (((cfg3.win 4).blk t).view.emb j)
  refine (Block.pay3_apply (iblk3 V c 0 t) (iblk3 V c 1 t) (iblk3 V c 2 t) (iblk3 V c 3 t) j).trans ?_
  unfold combine
  have hj0 : (j 0).val < 2000 := (j 0).isLt
  have hj1 : (j 1).val < 64 := (j 1).isLt
  have hagg : iblk3 V c 0 t j = V c main_v60 (((cfg3.win 4).blk t).view.emb j) := by
    show V c main_v60 (((cfg3.win 0).blk t).view.emb j) = _
    refine congrArg (V c main_v60) (funext fun a => Fin.ext ?_)
    match a with
    | ⟨0, _⟩ =>
      show win3_0.index t (0 : Fin 2) * 2000 + 1 * (j 0).val = win3_4.index t (0 : Fin 2) * 2000 + 1 * (j 0).val
      rw [e0, e8]
    | ⟨1, _⟩ =>
      show win3_0.index t (1 : Fin 2) * 64 + 1 * (j 1).val = win3_4.index t (1 : Fin 2) * 64 + 1 * (j 1).val
      rw [e1, e9]
  have hh : iblk3 V c 1 t j = V c main_v47 (((cfg3.win 4).blk t).view.emb j) := by
    show V c main_v47 (((cfg3.win 1).blk t).view.emb j) = _
    refine congrArg (V c main_v47) (funext fun a => Fin.ext ?_)
    match a with
    | ⟨0, _⟩ =>
      show win3_1.index t (0 : Fin 2) * 2000 + 1 * (j 0).val = win3_4.index t (0 : Fin 2) * 2000 + 1 * (j 0).val
      rw [e2, e8]
    | ⟨1, _⟩ =>
      show win3_1.index t (1 : Fin 2) * 64 + 1 * (j 1).val = win3_4.index t (1 : Fin 2) * 64 + 1 * (j 1).val
      rw [e3, e9]
  have hd : iblk3 V c 2 t (ix2 (⟨(j 0).val, (j 0).isLt⟩ : Fin 2000) (0 : Fin 1))
      = V c main_v61 (ix2 (rowOf (((cfg3.win 4).blk t).view.emb j)) (0 : Fin 1)) := by
    show V c main_v61 (((cfg3.win 2).blk t).view.emb (ix2 (⟨(j 0).val, (j 0).isLt⟩ : Fin 2000) (0 : Fin 1))) = _
    refine congrArg (V c main_v61) (funext fun a => Fin.ext ?_)
    match a with
    | ⟨0, _⟩ =>
      show win3_2.index t (0 : Fin 2) * 2000 + 1 * (j 0).val = win3_4.index t (0 : Fin 2) * 2000 + 1 * (j 0).val
      rw [e4, e8]
    | ⟨1, _⟩ =>
      show win3_2.index t (1 : Fin 2) * 1 + 1 * 0 = 0
      rw [e5]
  have hb : iblk3 V c 3 t (ix2 (0 : Fin 1) (⟨(j 1).val, (j 1).isLt⟩ : Fin 64))
      = V c main_v62 (ix2 (0 : Fin 1) (colOf (((cfg3.win 4).blk t).view.emb j))) := by
    show V c main_v62 (((cfg3.win 3).blk t).view.emb (ix2 (0 : Fin 1) (⟨(j 1).val, (j 1).isLt⟩ : Fin 64))) = _
    refine congrArg (V c main_v62) (funext fun a => Fin.ext ?_)
    match a with
    | ⟨0, _⟩ =>
      show win3_3.index t (0 : Fin 2) * 1 + 1 * 0 = 0
      rw [e6]
    | ⟨1, _⟩ =>
      show win3_3.index t (1 : Fin 2) * 64 + 1 * (j 1).val = win3_4.index t (1 : Fin 2) * 64 + 1 * (j 1).val
      rw [e7, e9]
  rw [hagg, hh, hd, hb]

/-- An index of the result array is in point t's block iff its coordinates are in the block's ranges. -/
theorem mem_blk (t : Fin cfg3.N) (i : S100000x64.Idx) :
    i ∈ ((cfg3.win 4).blk t).view.set ↔ ∀ a : Fin 2, win3_4.index t a * S2000x64.size a ≤ (i a).val
      ∧ (i a).val < win3_4.index t a * S2000x64.size a + S2000x64.size a := by
  show i ∈ ((View.whole main_v63).slice (win3_4.rect t)).set ↔ _
  rw [View.set_slice_whole, Rect.mem_set_unit]
  exact Iff.rfl

/-- Row r lies in the block of point r / 2000. -/
theorem cover (i : S100000x64.Idx) :
    ∃ t : Fin cfg3.N, (cfg3.win 4).flush t = true ∧ i ∈ ((cfg3.win 4).blk t).view.set := by
  have h0 : (i 0).val < 100000 := (i 0).isLt
  have h1 : (i 1).val < 64 := (i 1).isLt
  have hN : cfg3.N = 50 := N_3
  have hlt : (i 0).val / 2000 < cfg3.N := by rw [hN]; omega
  obtain ⟨-, -, -, -, -, -, -, -, e8, e9⟩ := idx_facts ⟨(i 0).val / 2000, hlt⟩
  refine ⟨⟨(i 0).val / 2000, hlt⟩, flush3_4 _, ?_⟩
  rw [mem_blk]
  intro a
  match a with
  | ⟨0, _⟩ =>
    show win3_4.index ⟨(i 0).val / 2000, hlt⟩ (0 : Fin 2) * 2000 ≤ (i 0).val
      ∧ (i 0).val < win3_4.index ⟨(i 0).val / 2000, hlt⟩ (0 : Fin 2) * 2000 + 2000
    rw [e8]; show (i 0).val / 2000 * 2000 ≤ (i 0).val ∧ (i 0).val < (i 0).val / 2000 * 2000 + 2000; omega
  | ⟨1, _⟩ =>
    show win3_4.index ⟨(i 0).val / 2000, hlt⟩ (1 : Fin 2) * 64 ≤ (i 1).val
      ∧ (i 1).val < win3_4.index ⟨(i 0).val / 2000, hlt⟩ (1 : Fin 2) * 64 + 64
    rw [e9]; omega

/-- The region's output array ends holding `combine` of the four arrays it found. -/
theorem final (c : Dev nD) :
    (dat3 V c).arrAt 4 cfg3.N = combine (V c main_v60) (V c main_v47) (V c main_v61) (V c main_v62) :=
  (dat3 V c).arrAt_eq_of_cover 4 (combine (V c main_v60) (V c main_v47) (V c main_v61) (V c main_v62))
    (fun t _ => flushed_eq V c t) cover

end Cert.Gcn.Region3

end
-- ==== Proof.KernelValue.lean ====
/-
  The result buffer of the idealized kernel as a function of the arrays at the first region's entry.

  The program runs: host operations (edge endpoints, degree, normalisation, per-edge coefficient), the first dense
  transform (region 0), host operations (gather · coefficient, scatter-add; the normalisation as a column, the bias as
  a row), the first combine stage (region 1), the second dense transform (region 2), the same host operations on the new
  features, the second combine stage (region 3). Each boundary's contents is a fold of the previous one's; a region
  changes only its output array, a host stretch only the buffers it writes. Reading the result buffer back through the
  boundaries gives `network` of the contents at region 0's entry.
-/
import proofs.«129566_j64089501991220_2_alg».proof.Proof.Gen.KernelIdeal.Frame
import proofs.«129566_j64089501991220_2_alg».proof.Proof.Layers
import proofs.«129566_j64089501991220_2_alg».proof.Proof.Region0
import proofs.«129566_j64089501991220_2_alg».proof.Proof.Region1
import proofs.«129566_j64089501991220_2_alg».proof.Proof.Region2
import proofs.«129566_j64089501991220_2_alg».proof.Proof.Region3
import Idealize.ShloMosaic.Lib.StableHlo.Run

noncomputable section

namespace Cert.Gcn.KernelValue

open Cert.KernelIdeal Cert.KernelIdeal.Gen Idealize.ShloMosaic Idealize.ShloMosaic.TcCoe Idealize.SL.Sem
open Idealize.ShloMosaic.StableHlo
open Cert.Gcn

/-- A buffer that a stretch of host operations does not write keeps its contents; a buffer it writes holds its
    operation's value of the operands' contents. -/
local macro "through " ops:ident : tactic => `(tactic| (dsimp only [$ops:ident]; after_results))

/-! ## The two stretches of host operations between the regions, from ANY contents `Vv` -/

section Host

variable (Vv : Valuation τ sig (Elt Ideal))

namespace Host1
set_option maxHeartbeats 4000000 in
theorem agg : StableHlo.after hostOps1 Vv (Proc.devRef .tc main_v43) = aggregate (Vv (Proc.devRef .tc main_v30)) (Vv (Proc.devRef .tc main_v1)) (Vv (Proc.devRef .tc main_v3)) (Vv (Proc.devRef .tc main_v28)) := by
  dsimp only [hostOps1]
  after_results_simp
  rfl

theorem col : StableHlo.after hostOps1 Vv (Proc.devRef .tc main_v44) = asColumn (Vv (Proc.devRef .tc main_v29)) := by
  through hostOps1
  rfl

theorem row : StableHlo.after hostOps1 Vv (Proc.devRef .tc main_v45) = asRow (Vv (Proc.devRef .tc main_arg4)) := by
  through hostOps1
  rfl

theorem keep_main_v30 : StableHlo.after hostOps1 Vv (Proc.devRef .tc main_v30) = Vv (Proc.devRef .tc main_v30) := by
  through hostOps1

theorem keep_main_v1 : StableHlo.after hostOps1 Vv (Proc.devRef .tc main_v1) = Vv (Proc.devRef .tc main_v1) := by
  through hostOps1

theorem keep_main_v3 : StableHlo.after hostOps1 Vv (Proc.devRef .tc main_v3) = Vv (Proc.devRef .tc main_v3) := by
  through hostOps1

theorem keep_main_v28 : StableHlo.after hostOps1 Vv (Proc.devRef .tc main_v28) = Vv (Proc.devRef .tc main_v28) := by
  through hostOps1

theorem keep_main_v29 : StableHlo.after hostOps1 Vv (Proc.devRef .tc main_v29) = Vv (Proc.devRef .tc main_v29) := by
  through hostOps1

theorem keep_main_arg5 : StableHlo.after hostOps1 Vv (Proc.devRef .tc main_arg5) = Vv (Proc.devRef .tc main_arg5) := by
  through hostOps1

theorem keep_main_arg6 : StableHlo.after hostOps1 Vv (Proc.devRef .tc main_arg6) = Vv (Proc.devRef .tc main_arg6) := by
  through hostOps1

end Host1

namespace Host3
set_option maxHeartbeats 4000000 in
theorem agg : StableHlo.after hostOps3 Vv (Proc.devRef .tc main_v60) = aggregate (Vv (Proc.devRef .tc main_v47)) (Vv (Proc.devRef .tc main_v1)) (Vv (Proc.devRef .tc main_v3)) (Vv (Proc.devRef .tc main_v28)) := by
  dsimp only [hostOps3]
  after_results_simp
  rfl

theorem col : StableHlo.after hostOps3 Vv (Proc.devRef .tc main_v61) = asColumn (Vv (Proc.devRef .tc main_v29)) := by
  through hostOps3
  rfl

theorem row : StableHlo.after hostOps3 Vv (Proc.devRef .tc main_v62) = asRow (Vv (Proc.devRef .tc main_arg6)) := by
  through hostOps3
  rfl

theorem keep_main_v47 : StableHlo.after hostOps3 Vv (Proc.devRef .tc main_v47) = Vv (Proc.devRef .tc main_v47) := by
  through hostOps3

theorem keep_main_v1 : StableHlo.after hostOps3 Vv (Proc.devRef .tc main_v1) = Vv (Proc.devRef .tc main_v1) := by
  through hostOps3

theorem keep_main_v3 : StableHlo.after hostOps3 Vv (Proc.devRef .tc main_v3) = Vv (Proc.devRef .tc main_v3) := by
  through hostOps3

theorem keep_main_v28 : StableHlo.after hostOps3 Vv (Proc.devRef .tc main_v28) = Vv (Proc.devRef .tc main_v28) := by
  through hostOps3

theorem keep_main_v29 : StableHlo.after hostOps3 Vv (Proc.devRef .tc main_v29) = Vv (Proc.devRef .tc main_v29) := by
  through hostOps3

end Host3

end Host

/-! ## The boundaries' contents, read back to region 0's entry -/

section Chain

variable (m : (ℓ : Loc nD τ sig) → Buf (Elt Ideal) ℓ) (ρ : Dev nD → PrngReg) (c : Dev nD)

/-- Region 0 leaves the first dense transform in its output array. -/
theorem h1_eq : W4 m ρ c (Proc.devRef .tc main_v30) = rowsDot (W3 m ρ c (Proc.devRef .tc main_arg0)) (W3 m ρ c (Proc.devRef .tc main_arg3)) :=
  (W4_arr m ρ c 2).trans (Region0.final (V3 m ρ) c)

/-- Region 0 writes no other buffer. -/
theorem at4 (b : Ref sig .tc) (hb : ∀ w, Pipeline.arrRef spec0 w ≠ b) : W4 m ρ c (Proc.devRef .tc b) = W3 m ρ c (Proc.devRef .tc b) :=
  W4_of_ne m ρ c b hb

/-- The first layer's aggregated term, normalisation column and bias row at region 1's entry. -/
theorem agg1_eq : W5 m ρ c (Proc.devRef .tc main_v43)
    = aggregate (rowsDot (W3 m ρ c (Proc.devRef .tc main_arg0)) (W3 m ρ c (Proc.devRef .tc main_arg3))) (W3 m ρ c (Proc.devRef .tc main_v1)) (W3 m ρ c (Proc.devRef .tc main_v3)) (W3 m ρ c (Proc.devRef .tc main_v28)) := by
  refine (Host1.agg (W4 m ρ c)).trans ?_
  rw [h1_eq, at4 m ρ c main_v1 (by decide), at4 m ρ c main_v3 (by decide), at4 m ρ c main_v28 (by decide)]

theorem h1_at5 : W5 m ρ c (Proc.devRef .tc main_v30) = rowsDot (W3 m ρ c (Proc.devRef .tc main_arg0)) (W3 m ρ c (Proc.devRef .tc main_arg3)) :=
  (Host1.keep_main_v30 (W4 m ρ c)).trans (h1_eq m ρ c)

theorem col1_eq : W5 m ρ c (Proc.devRef .tc main_v44) = asColumn (W3 m ρ c (Proc.devRef .tc main_v29)) := by
  refine (Host1.col (W4 m ρ c)).trans ?_
  rw [at4 m ρ c main_v29 (by decide)]

theorem row1_eq : W5 m ρ c (Proc.devRef .tc main_v45) = asRow (W3 m ρ c (Proc.devRef .tc main_arg4)) := by
  refine (Host1.row (W4 m ρ c)).trans ?_
  rw [at4 m ρ c main_arg4 (by decide)]

/-- Region 1 leaves the first layer's output in its output array. -/
theorem o1_eq : W6 m ρ c (Proc.devRef .tc main_v46)
    = layerRelu (W3 m ρ c (Proc.devRef .tc main_arg0)) (W3 m ρ c (Proc.devRef .tc main_arg3)) (W3 m ρ c (Proc.devRef .tc main_arg4)) (W3 m ρ c (Proc.devRef .tc main_v1)) (W3 m ρ c (Proc.devRef .tc main_v3)) (W3 m ρ c (Proc.devRef .tc main_v28)) (W3 m ρ c (Proc.devRef .tc main_v29)) := by
  refine ((W6_arr m ρ c 4).trans (Region1.final (V5 m ρ) c)).trans ?_
  show combineRelu (W5 m ρ c (Proc.devRef .tc main_v43)) (W5 m ρ c (Proc.devRef .tc main_v30)) (W5 m ρ c (Proc.devRef .tc main_v44)) (W5 m ρ c (Proc.devRef .tc main_v45)) = _
  rw [agg1_eq, h1_at5, col1_eq, row1_eq]
  rfl

/-- A buffer that neither region 0, nor the host operations after it, nor regions 1 and 2 write, at region 2's exit. -/
theorem at7 (b : Ref sig .tc) (h0 : ∀ w, Pipeline.arrRef spec0 w ≠ b) (h1 : ∀ w, Pipeline.arrRef spec1 w ≠ b) (h2 : ∀ w, Pipeline.arrRef spec2 w ≠ b)
    (hk : StableHlo.after hostOps1 (W4 m ρ c) (Proc.devRef .tc b) = W4 m ρ c (Proc.devRef .tc b)) :
    W7 m ρ c (Proc.devRef .tc b) = W3 m ρ c (Proc.devRef .tc b) :=
  (W7_of_ne m ρ c b h2).trans ((W6_of_ne m ρ c b h1).trans (hk.trans (W4_of_ne m ρ c b h0)))

/-- The second layer's weight at region 2's entry is as at region 0's entry. -/
theorem w2_at6 : W6 m ρ c (Proc.devRef .tc main_arg5) = W3 m ρ c (Proc.devRef .tc main_arg5) :=
  (W6_of_ne m ρ c main_arg5 (by decide)).trans ((Host1.keep_main_arg5 (W4 m ρ c)).trans (W4_of_ne m ρ c main_arg5 (by decide)))

/-- Region 2 leaves the second dense transform in its output array. -/
theorem h2_eq : W7 m ρ c (Proc.devRef .tc main_v47)
    = rowsDot (layerRelu (W3 m ρ c (Proc.devRef .tc main_arg0)) (W3 m ρ c (Proc.devRef .tc main_arg3)) (W3 m ρ c (Proc.devRef .tc main_arg4)) (W3 m ρ c (Proc.devRef .tc main_v1)) (W3 m ρ c (Proc.devRef .tc main_v3)) (W3 m ρ c (Proc.devRef .tc main_v28)) (W3 m ρ c (Proc.devRef .tc main_v29))) (W3 m ρ c (Proc.devRef .tc main_arg5)) := by
  refine ((W7_arr m ρ c 2).trans (Region2.final (V6 m ρ) c)).trans ?_
  show rowsDot (W6 m ρ c (Proc.devRef .tc main_v46)) (W6 m ρ c (Proc.devRef .tc main_arg5)) = _
  rw [o1_eq, w2_at6]

/-- THE RESULT: region 3 leaves the second layer's output, the whole network of the contents at region 0's entry. -/
theorem value : W9 m ρ c (Proc.devRef .tc main_v63)
    = network (W3 m ρ c (Proc.devRef .tc main_arg0)) (W3 m ρ c (Proc.devRef .tc main_arg3)) (W3 m ρ c (Proc.devRef .tc main_arg4)) (W3 m ρ c (Proc.devRef .tc main_arg5)) (W3 m ρ c (Proc.devRef .tc main_arg6))
        (W3 m ρ c (Proc.devRef .tc main_v1)) (W3 m ρ c (Proc.devRef .tc main_v3)) (W3 m ρ c (Proc.devRef .tc main_v28)) (W3 m ρ c (Proc.devRef .tc main_v29)) := by
  refine ((W9_arr m ρ c 4).trans (Region3.final (V8 m ρ) c)).trans ?_
  show combine (StableHlo.after hostOps3 (W7 m ρ c) (Proc.devRef .tc main_v60)) (StableHlo.after hostOps3 (W7 m ρ c) (Proc.devRef .tc main_v47))
    (StableHlo.after hostOps3 (W7 m ρ c) (Proc.devRef .tc main_v61)) (StableHlo.after hostOps3 (W7 m ρ c) (Proc.devRef .tc main_v62)) = _
  rw [Host3.agg, Host3.keep_main_v47, Host3.col, Host3.row, h2_eq,
    at7 m ρ c main_v1 (by decide) (by decide) (by decide) (Host1.keep_main_v1 _),
    at7 m ρ c main_v3 (by decide) (by decide) (by decide) (Host1.keep_main_v3 _),
    at7 m ρ c main_v28 (by decide) (by decide) (by decide) (Host1.keep_main_v28 _),
    at7 m ρ c main_v29 (by decide) (by decide) (by decide) (Host1.keep_main_v29 _),
    at7 m ρ c main_arg6 (by decide) (by decide) (by decide) (Host1.keep_main_arg6 _)]
  rfl

end Chain

end Cert.Gcn.KernelValue

end
-- ==== Proof.RefStages.lean ====
/-
  The idealized reference's stages as the layer functions. The reference computes, per layer, the product with the
  transposed weight (a transpose, then a contraction of axis 1 with axis 0), the edge aggregation, and
  (agg + h · d) + b with the normalisation spread along the features and the bias along the nodes by broadcasts; after the
  first layer, the maximum with zero. Read index by index these are `rowsDot`, `combineRelu` and `combine`.
-/
import proofs.«129566_j64089501991220_2_alg».proof.Proof.Gen.ReferenceIdeal.Read
import proofs.«129566_j64089501991220_2_alg».proof.Proof.Spec
import Idealize.ShloMosaic.Lib.ValueIdx
import Idealize.ShloMosaic.PureOps.Ideal.Laws

noncomputable section

namespace Cert.Gcn.Ref

open Cert.ReferenceIdeal Cert.ReferenceIdeal.Read Idealize.ShloMosaic Idealize.ShloMosaic.ValueIdx
open Cert.Gcn

variable (x0 : (⟨S100000x64, .f32⟩ : BufTy).Contents (Elt Ideal)) (x1 : (⟨S2x1250000, .i32⟩ : BufTy).Contents (Elt Ideal))
  (x2 : (⟨S1250000, .f32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal))

/-- The first layer's product with the transposed weight is `rowsDot`. -/
theorem dot1_eq : val_main_v30 (F := Ideal) x0 x3 = rowsDot x0 x3 := by
  funext i
  rw [val_main_v30_apply]
  unfold rowsDot
  refine Finset.sum_congr rfl fun k _ => ?_
  rw [val_main_v29_apply]
  have el : lidx_main_v30 i k = ix2 (rowOf i) k := funext fun a => by
    match a with
    | ⟨0, _⟩ => rfl
    | ⟨1, _⟩ => rfl
  have er : idx_main_v29 (ridx_main_v30 i k) = ix2 (colOf i) k := funext fun a => by
    match a with
    | ⟨0, _⟩ => rfl
    | ⟨1, _⟩ => rfl
  rw [el, er]

/-- The second layer's product with the transposed weight is `rowsDot` of the first layer's output. -/
theorem dot2_eq : val_main_v79 (F := Ideal) x0 x1 x2 x3 x4 x5 = rowsDot (val_main_v52 (F := Ideal) x0 x1 x2 x3 x4) x5 := by
  funext i
  rw [val_main_v79_apply]
  unfold rowsDot
  refine Finset.sum_congr rfl fun k _ => ?_
  rw [val_main_v78_apply]
  have el : lidx_main_v79 i k = ix2 (rowOf i) k := funext fun a => by
    match a with
    | ⟨0, _⟩ => rfl
    | ⟨1, _⟩ => rfl
  have er : idx_main_v78 (ridx_main_v79 i k) = ix2 (colOf i) k := funext fun a => by
    match a with
    | ⟨0, _⟩ => rfl
    | ⟨1, _⟩ => rfl
  rw [el, er]

/-- The first layer's sum and activation are `combineRelu`, for any column `D` holding the squared normalisation and
    any row `B` holding the bias. -/
theorem comb1_eq (D : SN1.Idx → EReal) (B : S164.Idx → EReal)
    (hD : ∀ r : Fin 100000, D (ix2 r (0 : Fin 1)) = val_main_v44 (F := Ideal) x1 x2 (ix1 r))
    (hB : ∀ q : Fin 64, B (ix2 (0 : Fin 1) q) = x4 (ix1 q)) :
    val_main_v52 (F := Ideal) x0 x1 x2 x3 x4
      = combineRelu (val_main_v43 (F := Ideal) x0 x1 x2 x3) (val_main_v30 (F := Ideal) x0 x3) D B := by
  funext i
  rw [val_main_v52_apply, val_main_v51_apply, val_main_v48_apply, val_main_v47_apply, val_main_v46_apply, val_main_v45_apply,
    val_main_v50_apply, val_main_v49_apply, val_main_call1_v0_apply, val_main_call1_cst_apply]
  unfold combineRelu combine
  rw [hD, hB]
  have e1 : idx_main_v45 (idx_main_v46 i) = ix1 (rowOf i) := funext fun a => by
    match a with
    | ⟨0, _⟩ => rfl
  have e2 : idx_main_v49 (idx_main_v50 i) = ix1 (colOf i) := funext fun a => by
    match a with
    | ⟨0, _⟩ => rfl
  rw [e1, e2]
  rfl

/-- The second layer's sum is `combine`, for any column `D` holding the squared normalisation (as the reference
    recomputes it) and any row `B` holding the bias. -/
theorem comb2_eq (D : SN1.Idx → EReal) (B : S164.Idx → EReal)
    (hD : ∀ r : Fin 100000, D (ix2 r (0 : Fin 1)) = val_main_v93 (F := Ideal) x1 x2 (ix1 r))
    (hB : ∀ q : Fin 64, B (ix2 (0 : Fin 1) q) = x6 (ix1 q)) :
    val_main_v100 (F := Ideal) x0 x1 x2 x3 x4 x5 x6
      = combine (val_main_v92 (F := Ideal) x0 x1 x2 x3 x4 x5) (val_main_v79 (F := Ideal) x0 x1 x2 x3 x4 x5) D B := by
  funext i
  rw [val_main_v100_apply, val_main_v97_apply, val_main_v96_apply, val_main_v95_apply, val_main_v94_apply,
    val_main_v99_apply, val_main_v98_apply]
  unfold combine
  rw [hD, hB]
  have e1 : idx_main_v94 (idx_main_v95 i) = ix1 (rowOf i) := funext fun a => by
    match a with
    | ⟨0, _⟩ => rfl
  have e2 : idx_main_v98 (idx_main_v99 i) = ix1 (colOf i) := funext fun a => by
    match a with
    | ⟨0, _⟩ => rfl
  rw [e1, e2]
  rfl

end Cert.Gcn.Ref

end
-- ==== Proof.Bridge.lean ====
/-
  The two programs meet. Before its first region the kernel's host program computes the edge endpoints, the per-edge
  coefficient and the squared normalisation by the very operations the reference applies (the reference applies them
  once per layer, to the same arguments, so twice the same values); and the reference's result, stage by stage, is
  `network` of the arguments and of those four host values.
-/
import proofs.«129566_j64089501991220_2_alg».proof.Proof.Gen.KernelIdeal.Launch
import proofs.«129566_j64089501991220_2_alg».proof.Proof.Gen.ReferenceIdeal.Read
import proofs.«129566_j64089501991220_2_alg».proof.Proof.Layers
import proofs.«129566_j64089501991220_2_alg».proof.Proof.RefStages
import Idealize.ShloMosaic.Lib.StableHlo.Run
import Idealize.ShloMosaic.Lib.Pipeline.Value
import Idealize.ShloMosaic.Lib.ValueLayout

noncomputable section

namespace Cert.Gcn.Bridge

open Cert.KernelIdeal Cert.KernelIdeal.Gen Idealize.ShloMosaic Idealize.ShloMosaic.TcCoe Idealize.SL.Sem
open Idealize.ShloMosaic.StableHlo Idealize.ShloMosaic.ValueIdx
open Cert.Gcn

/-! ## The kernel's host operations before its first region, from ANY contents `Vv` -/

section Prefix

variable (Vv : Valuation τ sig (Elt Ideal))

/-! ### The first stretch: the edge endpoints, the degree, its comparison with zero and its inverse square root -/

namespace StretchA

/-- The edges' source endpoints: row 0 of the edge index. -/
theorem src : StableHlo.after hostOps0 Vv (Proc.devRef .tc main_v1) = Cert.ReferenceIdeal.Read.val_main_v1 (F := Ideal) (Vv (Proc.devRef .tc main_arg1)) := by
  dsimp only [hostOps0]
  after_results_simp
  rfl

/-- The edges' destination endpoints: row 1 of the edge index. -/
theorem dst : StableHlo.after hostOps0 Vv (Proc.devRef .tc main_v3) = Cert.ReferenceIdeal.Read.val_main_v3 (F := Ideal) (Vv (Proc.devRef .tc main_arg1)) := by
  dsimp only [hostOps0]
  after_results_simp
  rfl

set_option maxHeartbeats 2000000 in
/-- Where the degree (segment sum of the weights, plus one) is positive. -/
theorem pos : StableHlo.after hostOps0 Vv (Proc.devRef .tc main_v10) = Cert.ReferenceIdeal.Read.val_main_v10 (F := Ideal) (Vv (Proc.devRef .tc main_arg1)) (Vv (Proc.devRef .tc main_arg2)) := by
  dsimp only [hostOps0]
  after_results_simp
  rfl

set_option maxHeartbeats 2000000 in
/-- The degree's inverse square root. -/
theorem rsq : StableHlo.after hostOps0 Vv (Proc.devRef .tc main_v11) = Cert.ReferenceIdeal.Read.val_main_v11 (F := Ideal) (Vv (Proc.devRef .tc main_arg1)) (Vv (Proc.devRef .tc main_arg2)) := by
  dsimp only [hostOps0]
  after_results_simp
  rfl

/-- The zero that stands where the degree is not positive. -/
theorem zero : StableHlo.after hostOps0 Vv (Proc.devRef .tc main_cst_2) = Cert.ReferenceIdeal.Read.val_main_cst_2 (F := Ideal) := by
  dsimp only [hostOps0]
  after_results_simp
  rfl

theorem keep_main_arg0 : StableHlo.after hostOps0 Vv (Proc.devRef .tc main_arg0) = Vv (Proc.devRef .tc main_arg0) := by
  dsimp only [hostOps0]
  after_results_simp

theorem keep_main_arg1 : StableHlo.after hostOps0 Vv (Proc.devRef .tc main_arg1) = Vv (Proc.devRef .tc main_arg1) := by
  dsimp only [hostOps0]
  after_results_simp

theorem keep_main_arg2 : StableHlo.after hostOps0 Vv (Proc.devRef .tc main_arg2) = Vv (Proc.devRef .tc main_arg2) := by
  dsimp only [hostOps0]
  after_results_simp

theorem keep_main_arg3 : StableHlo.after hostOps0 Vv (Proc.devRef .tc main_arg3) = Vv (Proc.devRef .tc main_arg3) := by
  dsimp only [hostOps0]
  after_results_simp

theorem keep_main_arg4 : StableHlo.after hostOps0 Vv (Proc.devRef .tc main_arg4) = Vv (Proc.devRef .tc main_arg4) := by
  dsimp only [hostOps0]
  after_results_simp

theorem keep_main_arg5 : StableHlo.after hostOps0 Vv (Proc.devRef .tc main_arg5) = Vv (Proc.devRef .tc main_arg5) := by
  dsimp only [hostOps0]
  after_results_simp

theorem keep_main_arg6 : StableHlo.after hostOps0 Vv (Proc.devRef .tc main_arg6) = Vv (Proc.devRef .tc main_arg6) := by
  dsimp only [hostOps0]
  after_results_simp

end StretchA

/-! ### The second stretch: `dis` = the inverse square root where the degree is positive, zero elsewhere -/

namespace StretchB

theorem dis : StableHlo.after hostOps0_1 Vv (Proc.devRef .tc main_v12)
    = select (Vv (Proc.devRef .tc main_v10)) (Vv (Proc.devRef .tc main_v11)) (broadcastInDim S100000 ![] bcast_S_S100000 (id (Vv (Proc.devRef .tc main_cst_2)))) := by
  dsimp only [hostOps0_1]
  after_results
  rfl

theorem keep_main_arg0 : StableHlo.after hostOps0_1 Vv (Proc.devRef .tc main_arg0) = Vv (Proc.devRef .tc main_arg0) := by
  dsimp only [hostOps0_1]
  after_results

theorem keep_main_arg1 : StableHlo.after hostOps0_1 Vv (Proc.devRef .tc main_arg1) = Vv (Proc.devRef .tc main_arg1) := by
  dsimp only [hostOps0_1]
  after_results

theorem keep_main_arg2 : StableHlo.after hostOps0_1 Vv (Proc.devRef .tc main_arg2) = Vv (Proc.devRef .tc main_arg2) := by
  dsimp only [hostOps0_1]
  after_results

theorem keep_main_arg3 : StableHlo.after hostOps0_1 Vv (Proc.devRef .tc main_arg3) = Vv (Proc.devRef .tc main_arg3) := by
  dsimp only [hostOps0_1]
  after_results

theorem keep_main_arg4 : StableHlo.after hostOps0_1 Vv (Proc.devRef .tc main_arg4) = Vv (Proc.devRef .tc main_arg4) := by
  dsimp only [hostOps0_1]
  after_results

theorem keep_main_arg5 : StableHlo.after hostOps0_1 Vv (Proc.devRef .tc main_arg5) = Vv (Proc.devRef .tc main_arg5) := by
  dsimp only [hostOps0_1]
  after_results

theorem keep_main_arg6 : StableHlo.after hostOps0_1 Vv (Proc.devRef .tc main_arg6) = Vv (Proc.devRef .tc main_arg6) := by
  dsimp only [hostOps0_1]
  after_results

theorem keep_main_v1 : StableHlo.after hostOps0_1 Vv (Proc.devRef .tc main_v1) = Vv (Proc.devRef .tc main_v1) := by
  dsimp only [hostOps0_1]
  after_results

theorem keep_main_v3 : StableHlo.after hostOps0_1 Vv (Proc.devRef .tc main_v3) = Vv (Proc.devRef .tc main_v3) := by
  dsimp only [hostOps0_1]
  after_results

end StretchB

/-! ### The third stretch: the per-edge coefficient and the squared normalisation -/

namespace StretchC

set_option maxHeartbeats 4000000 in
/-- dis[src] · w · dis[dst], the endpoints' negative indices wrapped once. -/
theorem coef (x1 : (⟨Cert.ReferenceIdeal.S2x1250000, .i32⟩ : BufTy).Contents (Elt Ideal))
    (x2 : (⟨Cert.ReferenceIdeal.S1250000, .f32⟩ : BufTy).Contents (Elt Ideal))
    (hd : Vv (Proc.devRef .tc main_v12) = Cert.ReferenceIdeal.Read.val_main_v12 (F := Ideal) x1 x2)
    (hs : Vv (Proc.devRef .tc main_v1) = Cert.ReferenceIdeal.Read.val_main_v1 (F := Ideal) x1)
    (ht : Vv (Proc.devRef .tc main_v3) = Cert.ReferenceIdeal.Read.val_main_v3 (F := Ideal) x1)
    (hw : Vv (Proc.devRef .tc main_arg2) = x2) :
    StableHlo.after hostOps0_2 Vv (Proc.devRef .tc main_v28) = Cert.ReferenceIdeal.Read.val_main_v28 (F := Ideal) x1 x2 := by
  dsimp only [hostOps0_2]
  after_results_simp
  rw [hd, hs, ht, hw]
  rfl

/-- dis · dis. -/
theorem dsq : @Eq (FVec Ideal S100000 .f32) (StableHlo.after hostOps0_2 Vv (Proc.devRef .tc main_v29))
    (mulf (Vv (Proc.devRef .tc main_v12)) (Vv (Proc.devRef .tc main_v12))) := by
  dsimp only [hostOps0_2]
  after_results_simp

theorem keep_main_arg0 : StableHlo.after hostOps0_2 Vv (Proc.devRef .tc main_arg0) = Vv (Proc.devRef .tc main_arg0) := by
  dsimp only [hostOps0_2]
  after_results_simp

theorem keep_main_arg1 : StableHlo.after hostOps0_2 Vv (Proc.devRef .tc main_arg1) = Vv (Proc.devRef .tc main_arg1) := by
  dsimp only [hostOps0_2]
  after_results_simp

theorem keep_main_arg2 : StableHlo.after hostOps0_2 Vv (Proc.devRef .tc main_arg2) = Vv (Proc.devRef .tc main_arg2) := by
  dsimp only [hostOps0_2]
  after_results_simp

theorem keep_main_arg3 : StableHlo.after hostOps0_2 Vv (Proc.devRef .tc main_arg3) = Vv (Proc.devRef .tc main_arg3) := by
  dsimp only [hostOps0_2]
  after_results_simp

theorem keep_main_arg4 : StableHlo.after hostOps0_2 Vv (Proc.devRef .tc main_arg4) = Vv (Proc.devRef .tc main_arg4) := by
  dsimp only [hostOps0_2]
  after_results_simp

theorem keep_main_arg5 : StableHlo.after hostOps0_2 Vv (Proc.devRef .tc main_arg5) = Vv (Proc.devRef .tc main_arg5) := by
  dsimp only [hostOps0_2]
  after_results_simp

theorem keep_main_arg6 : StableHlo.after hostOps0_2 Vv (Proc.devRef .tc main_arg6) = Vv (Proc.devRef .tc main_arg6) := by
  dsimp only [hostOps0_2]
  after_results_simp

theorem keep_main_v1 : StableHlo.after hostOps0_2 Vv (Proc.devRef .tc main_v1) = Vv (Proc.devRef .tc main_v1) := by
  dsimp only [hostOps0_2]
  after_results_simp

theorem keep_main_v3 : StableHlo.after hostOps0_2 Vv (Proc.devRef .tc main_v3) = Vv (Proc.devRef .tc main_v3) := by
  dsimp only [hostOps0_2]
  after_results_simp

end StretchC

/-! ### The three stretches together -/

/-- `dis` after the first two stretches is the reference's. -/
theorem pre_dis : StableHlo.after hostOps0_1 (StableHlo.after hostOps0 Vv) (Proc.devRef .tc main_v12)
    = Cert.ReferenceIdeal.Read.val_main_v12 (F := Ideal) (Vv (Proc.devRef .tc main_arg1)) (Vv (Proc.devRef .tc main_arg2)) := by
  refine (StretchB.dis (StableHlo.after hostOps0 Vv)).trans ?_
  rw [StretchA.pos, StretchA.rsq, StretchA.zero]
  rfl

theorem pre_src : StableHlo.after hostOps0_2 (StableHlo.after hostOps0_1 (StableHlo.after hostOps0 Vv)) (Proc.devRef .tc main_v1) = Cert.ReferenceIdeal.Read.val_main_v1 (F := Ideal) (Vv (Proc.devRef .tc main_arg1)) :=
  (StretchC.keep_main_v1 _).trans ((StretchB.keep_main_v1 _).trans (StretchA.src Vv))

theorem pre_dst : StableHlo.after hostOps0_2 (StableHlo.after hostOps0_1 (StableHlo.after hostOps0 Vv)) (Proc.devRef .tc main_v3) = Cert.ReferenceIdeal.Read.val_main_v3 (F := Ideal) (Vv (Proc.devRef .tc main_arg1)) :=
  (StretchC.keep_main_v3 _).trans ((StretchB.keep_main_v3 _).trans (StretchA.dst Vv))

theorem pre_coef : StableHlo.after hostOps0_2 (StableHlo.after hostOps0_1 (StableHlo.after hostOps0 Vv)) (Proc.devRef .tc main_v28) = Cert.ReferenceIdeal.Read.val_main_v28 (F := Ideal) (Vv (Proc.devRef .tc main_arg1)) (Vv (Proc.devRef .tc main_arg2)) :=
  StretchC.coef _ _ _ (pre_dis Vv)
    ((StretchB.keep_main_v1 _).trans (StretchA.src Vv))
    ((StretchB.keep_main_v3 _).trans (StretchA.dst Vv))
    ((StretchB.keep_main_arg2 _).trans (StretchA.keep_main_arg2 Vv))

theorem pre_dsq : StableHlo.after hostOps0_2 (StableHlo.after hostOps0_1 (StableHlo.after hostOps0 Vv)) (Proc.devRef .tc main_v29) = Cert.ReferenceIdeal.Read.val_main_v44 (F := Ideal) (Vv (Proc.devRef .tc main_arg1)) (Vv (Proc.devRef .tc main_arg2)) := by
  refine (StretchC.dsq _).trans ?_
  rw [pre_dis]
  rfl

/-- No host operation writes an argument. -/
theorem pre_main_arg0 : StableHlo.after hostOps0_2 (StableHlo.after hostOps0_1 (StableHlo.after hostOps0 Vv)) (Proc.devRef .tc main_arg0) = Vv (Proc.devRef .tc main_arg0) :=
  (StretchC.keep_main_arg0 _).trans ((StretchB.keep_main_arg0 _).trans (StretchA.keep_main_arg0 Vv))

/-- No host operation writes an argument. -/
theorem pre_main_arg3 : StableHlo.after hostOps0_2 (StableHlo.after hostOps0_1 (StableHlo.after hostOps0 Vv)) (Proc.devRef .tc main_arg3) = Vv (Proc.devRef .tc main_arg3) :=
  (StretchC.keep_main_arg3 _).trans ((StretchB.keep_main_arg3 _).trans (StretchA.keep_main_arg3 Vv))

/-- No host operation writes an argument. -/
theorem pre_main_arg4 : StableHlo.after hostOps0_2 (StableHlo.after hostOps0_1 (StableHlo.after hostOps0 Vv)) (Proc.devRef .tc main_arg4) = Vv (Proc.devRef .tc main_arg4) :=
  (StretchC.keep_main_arg4 _).trans ((StretchB.keep_main_arg4 _).trans (StretchA.keep_main_arg4 Vv))

/-- No host operation writes an argument. -/
theorem pre_main_arg5 : StableHlo.after hostOps0_2 (StableHlo.after hostOps0_1 (StableHlo.after hostOps0 Vv)) (Proc.devRef .tc main_arg5) = Vv (Proc.devRef .tc main_arg5) :=
  (StretchC.keep_main_arg5 _).trans ((StretchB.keep_main_arg5 _).trans (StretchA.keep_main_arg5 Vv))

/-- No host operation writes an argument. -/
theorem pre_main_arg6 : StableHlo.after hostOps0_2 (StableHlo.after hostOps0_1 (StableHlo.after hostOps0 Vv)) (Proc.devRef .tc main_arg6) = Vv (Proc.devRef .tc main_arg6) :=
  (StretchC.keep_main_arg6 _).trans ((StretchB.keep_main_arg6 _).trans (StretchA.keep_main_arg6 Vv))

end Prefix

/-! ## The reference's result is `network` -/

section Reference

/-- The normalisation as a column, read at (r, 0). -/
theorem asColumn_apply (d : (⟨S100000, .f32⟩ : BufTy).Contents (Elt Ideal)) (r : Fin 100000) :
    asColumn d (ix2 r (0 : Fin 1)) = d (ix1 r) := by
  unfold asColumn
  exact shapeCast_apply d shapeCasts_S100000_S100000x1 _ _ (by
    rw [Shape.rowMajor_val_two, Shape.rowMajor_val_one]
    show r.val = r.val * 1 + 0
    omega)

/-- A bias as a row, read at (0, q). -/
theorem asRow_apply (b : (⟨S64, .f32⟩ : BufTy).Contents (Elt Ideal)) (q : Fin 64) :
    asRow b (ix2 (0 : Fin 1) q) = b (ix1 q) := by
  unfold asRow
  exact shapeCast_a_1a_apply b shapeCasts_S64_S1x64 0 q

variable (x0 : (⟨Cert.ReferenceIdeal.S100000x64, .f32⟩ : BufTy).Contents (Elt Ideal))
  (x1 : (⟨Cert.ReferenceIdeal.S2x1250000, .i32⟩ : BufTy).Contents (Elt Ideal))
  (x2 : (⟨Cert.ReferenceIdeal.S1250000, .f32⟩ : BufTy).Contents (Elt Ideal))
  (x3 : (⟨Cert.ReferenceIdeal.S64x64, .f32⟩ : BufTy).Contents (Elt Ideal))
  (x4 : (⟨Cert.ReferenceIdeal.S64, .f32⟩ : BufTy).Contents (Elt Ideal))
  (x5 : (⟨Cert.ReferenceIdeal.S64x64, .f32⟩ : BufTy).Contents (Elt Ideal))
  (x6 : (⟨Cert.ReferenceIdeal.S64, .f32⟩ : BufTy).Contents (Elt Ideal))

/-- The reference's first aggregation is `aggregate` of its first dense transform. -/
theorem agg1 : Cert.ReferenceIdeal.Read.val_main_v43 (F := Ideal) x0 x1 x2 x3
    = aggregate (Cert.ReferenceIdeal.Read.val_main_v30 (F := Ideal) x0 x3) (Cert.ReferenceIdeal.Read.val_main_v1 (F := Ideal) x1) (Cert.ReferenceIdeal.Read.val_main_v3 (F := Ideal) x1)
        (Cert.ReferenceIdeal.Read.val_main_v28 (F := Ideal) x1 x2) := rfl

/-- The reference recomputes the coefficient for the second layer from the same arguments: the same value. -/
theorem coef2 : Cert.ReferenceIdeal.Read.val_main_v77 (F := Ideal) x1 x2 = Cert.ReferenceIdeal.Read.val_main_v28 (F := Ideal) x1 x2 := rfl

/-- And the squared normalisation. -/
theorem dsq2 : Cert.ReferenceIdeal.Read.val_main_v93 (F := Ideal) x1 x2 = Cert.ReferenceIdeal.Read.val_main_v44 (F := Ideal) x1 x2 := rfl

/-- The reference's second aggregation is `aggregate` of its second dense transform. -/
theorem agg2 : Cert.ReferenceIdeal.Read.val_main_v92 (F := Ideal) x0 x1 x2 x3 x4 x5
    = aggregate (Cert.ReferenceIdeal.Read.val_main_v79 (F := Ideal) x0 x1 x2 x3 x4 x5) (Cert.ReferenceIdeal.Read.val_main_v1 (F := Ideal) x1) (Cert.ReferenceIdeal.Read.val_main_v3 (F := Ideal) x1)
        (Cert.ReferenceIdeal.Read.val_main_v28 (F := Ideal) x1 x2) := by
  unfold Cert.ReferenceIdeal.Read.val_main_v92 Cert.ReferenceIdeal.Read.val_main_v89 Cert.ReferenceIdeal.Read.val_main_v88 Cert.ReferenceIdeal.Read.val_main_v87
  rw [coef2]
  rfl

/-- THE REFERENCE'S RESULT as the two-layer network of the arguments and the four host values. -/
theorem ref_value : Cert.ReferenceIdeal.Read.val_main_v100 (F := Ideal) x0 x1 x2 x3 x4 x5 x6
    = network x0 x3 x4 x5 x6 (Cert.ReferenceIdeal.Read.val_main_v1 (F := Ideal) x1) (Cert.ReferenceIdeal.Read.val_main_v3 (F := Ideal) x1)
        (Cert.ReferenceIdeal.Read.val_main_v28 (F := Ideal) x1 x2) (Cert.ReferenceIdeal.Read.val_main_v44 (F := Ideal) x1 x2) := by
  have hD2 : ∀ r : Fin 100000, asColumn (Cert.ReferenceIdeal.Read.val_main_v44 (F := Ideal) x1 x2) (ix2 r (0 : Fin 1))
      = Cert.ReferenceIdeal.Read.val_main_v93 (F := Ideal) x1 x2 (ix1 r) :=
    fun r => (asColumn_apply _ r).trans (congrFun (dsq2 x1 x2).symm _)
  rw [Ref.comb2_eq x0 x1 x2 x3 x4 x5 x6 (asColumn (Cert.ReferenceIdeal.Read.val_main_v44 (F := Ideal) x1 x2)) (asRow x6) hD2 (asRow_apply x6),
    agg2, Ref.dot2_eq,
    Ref.comb1_eq x0 x1 x2 x3 x4 (asColumn (Cert.ReferenceIdeal.Read.val_main_v44 (F := Ideal) x1 x2)) (asRow x4) (asColumn_apply _) (asRow_apply x4),
    agg1, Ref.dot1_eq]
  rfl

end Reference

end Cert.Gcn.Bridge

end
-- ==== Proof.lean ====
/-
  A two-layer graph convolution on N = 100000 nodes with 64 features and 1250000 weighted edges: the Pallas program
  against its jnp reference, on the extended reals.

  Both programs compute, from the edge list and the edge weights, the degree (segment sum of the weights plus one for
  the self-loop), its inverse square root `dis` where the degree is positive, the per-edge coefficient
  dis[src] · w · dis[dst] and the squared normalisation dis · dis, by the same host operations. A layer is then

      h   = x · Wᵀ                               (the dense transform)
      agg = Σ_{e : dst[e] = r} coef[e] · h[src[e]]   (gather, product, scatter-add: host operations in both programs)
      out = (agg + h · dis²) + b                 (and, after the first layer, the maximum with zero).

  The kernel computes `h` block by block (10000 node rows per grid point, the operands rounded to bf16 on the way in,
  which is the identity on the extended reals, contracting axis 1 of both operands into a zero accumulator) and `out` block
  by block (2000 node rows per grid point, the normalisation as a column and the bias as a row spread inside the block); the
  reference transposes the weight and contracts axis 1 with axis 0, and spreads the normalisation and the bias by
  broadcasts over the whole array. Entry by entry the two are the same sums and products in the same order — the sum over
  the 64 features, one product, two additions — so no law of the extended reals beyond reading each operation at an
  index is used, and the precondition (finite inputs) is never opened. What joins the two sides:

    * each block of a dense transform is the matching rows of Σ_k x[r, k] · W[c, k], and the blocks tile the rows
      (Region0, Region2 over MatmulBlock); likewise each block of a combine stage (Region1, Region3 over CombineBlock);
    * the kernel's buffers at each boundary between host operations and regions, read back to the first region's entry,
      give the result buffer as `network` of the arguments and the four host values (KernelValue over KernelRun);
    * the reference's stages are the same `network` (RefStages, Bridge), its second computation of the coefficient and of
      the normalisation being the first one again.

  The three frames: the two kernel programs' are the generated ones; the reference's is its generated run with the result
  dropped. The idealization rewrote nothing, so `preserves` is trivial.
-/
import proofs.«129566_j64089501991220_2_alg».proof.Defs
import proofs.«129566_j64089501991220_2_alg».proof.Proof.Gen.Kernel
import proofs.«129566_j64089501991220_2_alg».proof.Proof.Gen.Kernel.Skeleton
import proofs.«129566_j64089501991220_2_alg».proof.Proof.Gen.Kernel.Launch
import proofs.«129566_j64089501991220_2_alg».proof.Proof.Gen.Kernel.Points
import proofs.«129566_j64089501991220_2_alg».proof.Proof.Gen.Kernel.Frame
import proofs.«129566_j64089501991220_2_alg».proof.Proof.Gen.KernelIdeal
import proofs.«129566_j64089501991220_2_alg».proof.Proof.Gen.KernelIdeal.Skeleton
import proofs.«129566_j64089501991220_2_alg».proof.Proof.Gen.KernelIdeal.Launch
import proofs.«129566_j64089501991220_2_alg».proof.Proof.Gen.KernelIdeal.Points
import proofs.«129566_j64089501991220_2_alg».proof.Proof.Gen.KernelIdeal.Frame
import proofs.«129566_j64089501991220_2_alg».proof.Proof.Gen.ReferenceIdeal
import proofs.«129566_j64089501991220_2_alg».proof.Proof.Gen.Pre_finite_inputs
import proofs.«129566_j64089501991220_2_alg».proof.Proof.Gen.ReferenceIdeal.Run
import proofs.«129566_j64089501991220_2_alg».proof.Proof.Gen.ReferenceIdeal.Read
import proofs.«129566_j64089501991220_2_alg».proof.Proof.KernelRun
import proofs.«129566_j64089501991220_2_alg».proof.Proof.KernelValue
import proofs.«129566_j64089501991220_2_alg».proof.Proof.Bridge
import Idealize.ShloMosaic.Adequacy
import Idealize.ShloMosaic.Init

noncomputable section

namespace Cert.Proof

open Idealize.ShloMosaic Idealize.ShloMosaic.TcCoe Idealize.SL.Sem

/-- The kernel's result buffer after its run, as `network` of the launch memory's arguments and of the reference's
    four host values of them. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W9 m ρ c (Proc.devRef .tc Cert.KernelIdeal.main_v63)
      = Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (Cert.ReferenceIdeal.Read.val_main_v1 (F := Ideal) (m ((c.tc : Thread Cert.KernelIdeal.nD Cert.KernelIdeal.τ).loc Cert.KernelIdeal.main_arg1))) (Cert.ReferenceIdeal.Read.val_main_v3 (F := Ideal) (m ((c.tc : Thread Cert.KernelIdeal.nD Cert.KernelIdeal.τ).loc Cert.KernelIdeal.main_arg1)))
          (Cert.ReferenceIdeal.Read.val_main_v28 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
          (Cert.ReferenceIdeal.Read.val_main_v44 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) := by
  refine (Cert.Gcn.KernelValue.value m ρ c).trans ?_
  have e0 : Cert.KernelIdeal.Gen.W3 m ρ c (Proc.devRef .tc Cert.KernelIdeal.main_arg0) = (m ((c.tc : Thread Cert.KernelIdeal.nD Cert.KernelIdeal.τ).loc Cert.KernelIdeal.main_arg0)) := Cert.Gcn.Bridge.pre_main_arg0 (Cert.KernelIdeal.Gen.W0 m ρ c)
  have e3 : Cert.KernelIdeal.Gen.W3 m ρ c (Proc.devRef .tc Cert.KernelIdeal.main_arg3) = (m ((c.tc : Thread Cert.KernelIdeal.nD Cert.KernelIdeal.τ).loc Cert.KernelIdeal.main_arg3)) := Cert.Gcn.Bridge.pre_main_arg3 (Cert.KernelIdeal.Gen.W0 m ρ c)
  have e4 : Cert.KernelIdeal.Gen.W3 m ρ c (Proc.devRef .tc Cert.KernelIdeal.main_arg4) = (m ((c.tc : Thread Cert.KernelIdeal.nD Cert.KernelIdeal.τ).loc Cert.KernelIdeal.main_arg4)) := Cert.Gcn.Bridge.pre_main_arg4 (Cert.KernelIdeal.Gen.W0 m ρ c)
  have e5 : Cert.KernelIdeal.Gen.W3 m ρ c (Proc.devRef .tc Cert.KernelIdeal.main_arg5) = (m ((c.tc : Thread Cert.KernelIdeal.nD Cert.KernelIdeal.τ).loc Cert.KernelIdeal.main_arg5)) := Cert.Gcn.Bridge.pre_main_arg5 (Cert.KernelIdeal.Gen.W0 m ρ c)
  have e6 : Cert.KernelIdeal.Gen.W3 m ρ c (Proc.devRef .tc Cert.KernelIdeal.main_arg6) = (m ((c.tc : Thread Cert.KernelIdeal.nD Cert.KernelIdeal.τ).loc Cert.KernelIdeal.main_arg6)) := Cert.Gcn.Bridge.pre_main_arg6 (Cert.KernelIdeal.Gen.W0 m ρ c)
  have es : Cert.KernelIdeal.Gen.W3 m ρ c (Proc.devRef .tc Cert.KernelIdeal.main_v1) = Cert.ReferenceIdeal.Read.val_main_v1 (F := Ideal) (m ((c.tc : Thread Cert.KernelIdeal.nD Cert.KernelIdeal.τ).loc Cert.KernelIdeal.main_arg1)) := Cert.Gcn.Bridge.pre_src (Cert.KernelIdeal.Gen.W0 m ρ c)
  have ed : Cert.KernelIdeal.Gen.W3 m ρ c (Proc.devRef .tc Cert.KernelIdeal.main_v3) = Cert.ReferenceIdeal.Read.val_main_v3 (F := Ideal) (m ((c.tc : Thread Cert.KernelIdeal.nD Cert.KernelIdeal.τ).loc Cert.KernelIdeal.main_arg1)) := Cert.Gcn.Bridge.pre_dst (Cert.KernelIdeal.Gen.W0 m ρ c)
  have ec : Cert.KernelIdeal.Gen.W3 m ρ c (Proc.devRef .tc Cert.KernelIdeal.main_v28) = Cert.ReferenceIdeal.Read.val_main_v28 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := Cert.Gcn.Bridge.pre_coef (Cert.KernelIdeal.Gen.W0 m ρ c)
  have eq : Cert.KernelIdeal.Gen.W3 m ρ c (Proc.devRef .tc Cert.KernelIdeal.main_v29) = Cert.ReferenceIdeal.Read.val_main_v44 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := Cert.Gcn.Bridge.pre_dsq (Cert.KernelIdeal.Gen.W0 m ρ c)
  rw [e0, e3, e4, e5, e6, es, ed, ec, eq]

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at `network` of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v63), Cert.Gcn.Run.run_named m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v100_eq, a0, a1, a2, a3, a4, a5, a6, Cert.Gcn.Bridge.ref_value]
  exact (kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
